-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel

variable [Facts]

def fn {F : FTy → Type} [FloatOps F] (main_arg0 : FVec F S32x512x768 .f32) (main_arg1 : FVec F S32x512x768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S32x512x768 .f32 := Host.absf main_arg1
  let main_cst_0 : FVec F S_ .f32 := constant S_ .f32 0x7F800000#32
  let main_v5 : FVec F S32x512x768 .f32 := broadcastInDim S32x512x768 ![] bcast_S_S32x512x768 main_cst_0
  let main_v6 : IVec S32x512x768 1 := cmpf .olt main_v4 main_v5
  let main_c_1 : IVec S_ 1 := constantI S_ 1 1#1
  let main_v7 : IVec S_ 1 := (fun x v => Host.reduce IntOp.andi x v reducesTo_S32x512x768_S_d0_1_2 h_S_) main_v6 main_c_1
  let main_v8 : IVec S_ 1 := andi main_v3 main_v7
  main_v8
-- ==== Kernel.lean ====
abbrev S32x512x768 : Shape := ⟨3, ![32, 512, 768]⟩
abbrev S32x512x3072 : Shape := ⟨3, ![32, 512, 3072]⟩
abbrev S1x512x768 : Shape := ⟨3, ![1, 512, 768]⟩
abbrev S1x512x3072 : Shape := ⟨3, ![1, 512, 3072]⟩
abbrev S512x768 : Shape := ⟨2, ![512, 768]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S32x512x768, .f32⟩
  | .hbm, ⟨1, _⟩ => ⟨S32x512x768, .f32⟩
  | .hbm, ⟨2, _⟩ => ⟨S32x512x3072, .f32⟩
  | .hbm, ⟨3, _⟩ => ⟨S32x512x3072, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x3072, .f32⟩
  | .local _ .vmem, ⟨5, _⟩ => ⟨S1x512x3072, .f32⟩
  | .local _ .vmem, ⟨6, _⟩ => ⟨S1x512x3072, .f32⟩
  | .local _ .vmem, ⟨7, _⟩ => ⟨S1x512x3072, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  reduces_S512x512_S512 : S512x512.Reduces [1] S512
  shapeCasts_S512_S512x1 : S512.ShapeCasts S512x1
  broadcasts_S512x1_S512x512 : S512x1.Broadcasts S512x512
  inb_S1x512x3072_S1x512x768_0_0_0 : ∀ a, (![0, 0, 0] : Fin 3 → Nat) a + S1x512x768.size a ≤ S1x512x3072.size a
  shapeCasts_S512x768_S1x512x768 : S512x768.ShapeCasts S1x512x768
  inb_S1x512x3072_S1x512x768_0_0_768 : ∀ a, (![0, 0, 768] : Fin 3 → Nat) a + S1x512x768.size a ≤ S1x512x3072.size a
  inb_S1x512x3072_S1x512x768_0_0_1536 : ∀ a, (![0, 0, 1536] : Fin 3 → Nat) a + S1x512x768.size a ≤ S1x512x3072.size a
  inb_S1x512x3072_S1x512x768_0_0_2304 : ∀ a, (![0, 0, 2304] : Fin 3 → Nat) a + S1x512x768.size a ≤ S1x512x3072.size a
  reduces_S512x512_S512_2 : S512x512.Reduces [0] S512
  shapeCasts_S512_S1x512 : S512.ShapeCasts S1x512
  broadcasts_S1x512_S512x512 : S1x512.Broadcasts S512x512
  dot_S512x768_S512x768_S512x512_1_1_0_0_n_n_wf : DotDims.WF S512x768 S512x768 S512x512 [1] [1] [0] [0] [] []
  dot_S512x512_S512x768_S512x768_1_0_0_1_n_n_wf : DotDims.WF S512x512 S512x768 S512x768 [1] [0] [0] [1] [] []
  dot_S512x512_S512x768_S512x768_0_0_1_1_n_n_wf : DotDims.WF S512x512 S512x768 S512x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S32x512x768.size a
  hwx0_0 : ∀ i : grid0.Coords, EltTy.bits .f32 = 32 ∨ (Rect.block (s := S32x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x768.size a ≤ S32x512x768.size a
  hwx0_1 : ∀ i : grid0.Coords, EltTy.bits .f32 = 32 ∨ (Rect.block (s := S32x512x768) S1x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3072.size a ≤ S32x512x3072.size a
  hwx0_2 : ∀ i : grid0.Coords, EltTy.bits .f32 = 32 ∨ (Rect.block (s := S32x512x3072) S1x512x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3072.size a ≤ S32x512x3072.size a
  hwx0_3 : ∀ i : grid0.Coords, EltTy.bits .f32 = 32 ∨ (Rect.block (s := S32x512x3072) S1x512x3072.size (cc0_transform_3 i) (hinb0_3 i)).WholeWords (EltTy.packing .f32)

variable [Facts₀]

def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf
def dot_S512x512_S512x768_S512x768_0_0_1_1_n_n : DotDims S512x512 S512x768 S512x768 where
  lhsContracting := [0]
  rhsContracting := [0]
  lhsNonContracting := [1]
  rhsNonContracting := [1]
  lhsBatch := []
  rhsBatch := []
  wf := dot_S512x512_S512x768_S512x768_0_0_1_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512x3072.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S32x512x512 : Shape := ⟨3, ![32, 512, 512]⟩
abbrev S_ : Shape := ⟨0, ![]⟩
abbrev S32x512 : Shape := ⟨2, ![32, 512]⟩
abbrev S32x512x1 : Shape := ⟨3, ![32, 512, 1]⟩
abbrev S32x1x512 : Shape := ⟨3, ![32, 1, 512]⟩
abbrev S32x512x3072 : Shape := ⟨3, ![32, 512, 3072]⟩

abbrev nBuf : Space → Nat
  | .hbm => 39
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x512x768, .f32⟩
  | .hbm, ⟨2, _⟩ => ⟨S32x512x512, .f32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S32x512x1, .f32⟩
  | .hbm, ⟨9, _⟩ => ⟨S32x512x512, .f32⟩
  | .hbm, ⟨10, _⟩ => ⟨S32x512x512, .f32⟩
  | .hbm, ⟨11, _⟩ => ⟨S32x512x512, .f32⟩
  | .hbm, ⟨12, _⟩ => ⟨S_, .f32⟩
  | .hbm, ⟨13, _⟩ => ⟨S32x512, .f32⟩
  | .hbm, ⟨14, _⟩ => ⟨S32x512x1, .f32⟩
  | .hbm, ⟨15, _⟩ => ⟨S32x512x512, .f32⟩
  | .hbm, ⟨16, _⟩ => ⟨S32x512x512, .f32⟩
  | .hbm, ⟨17, _⟩ => ⟨S32x512x768, .f32⟩
  | .hbm, ⟨18, _⟩ => ⟨S_, .f32⟩
  | .hbm, ⟨19, _⟩ => ⟨S32x512, .f32⟩
  | .hbm, ⟨20, _⟩ => ⟨S_, .f32⟩
  | .hbm, ⟨21, _⟩ => ⟨S32x512, .f32⟩
  | .hbm, ⟨22, _⟩ => ⟨S32x512, .f32⟩
  | .hbm, ⟨23, _⟩ => ⟨S32x1x512, .f32⟩
  | .hbm, ⟨24, _⟩ => ⟨S32x512x512, .f32⟩
  | .hbm, ⟨25, _⟩ => ⟨S32x512x512, .f32⟩
  | .hbm, ⟨26, _⟩ => ⟨S32x512x512, .f32⟩
  | .hbm, ⟨27, _⟩ => ⟨S_, .f32⟩
  | .hbm, ⟨28, _⟩ => ⟨S32x512, .f32⟩
  | .hbm, ⟨29, _⟩ => ⟨S32x1x512, .f32⟩
  | .hbm, ⟨30, _⟩ => ⟨S32x512x512, .f32⟩
  | .hbm, ⟨31, _⟩ => ⟨S32x512x512, .f32⟩
  | .hbm, ⟨32, _⟩ => ⟨S32x512x768, .f32⟩
  | .hbm, ⟨33, _⟩ => ⟨S32x512x768, .f32⟩
  | .hbm, ⟨34, _⟩ => ⟨S32x512x768, .f32⟩
  | .hbm, ⟨35, _⟩ => ⟨S32x512x3072, .f32⟩
  | .hbm, ⟨36, _⟩ => ⟨S32x512x768, .f32⟩
  | .hbm, ⟨37, _⟩ => ⟨S32x512x768, .f32⟩
  | .hbm, ⟨38, _⟩ => ⟨S32x512x3072, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  reducesTo_S32x512x512_S32x512_d2 : S32x512x512.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x512_0_1_2 : S32x512x1.BroadcastsInDim S32x512x512 (![0, 1, 2] : Fin 3 → Fin S32x512x512.rank)
  reducesTo_S32x512x512_S32x512_d1 : S32x512x512.ReducesTo [1] S32x512
  bcast_S32x512_S32x1x512_0_2 : S32x512.BroadcastsInDim S32x1x512 (![0, 2] : Fin 2 → Fin S32x1x512.rank)
  bcast_S32x1x512_S32x512x512_0_1_2 : S32x1x512.BroadcastsInDim S32x512x512 (![0, 1, 2] : Fin 3 → Fin S32x512x512.rank)
  concatenates_S32x512x768_S32x512x768_S32x512x768_S32x512x768_S32x512x3072_d2 : Shape.Concatenates [S32x512x768, S32x512x768, S32x512x768, S32x512x768] S32x512x3072 2
  dot_S32x512x768_S32x512x768_S32x512x512_2_2_1_1_0_0_wf : DotDims.WF S32x512x768 S32x512x768 S32x512x512 [2] [2] [1] [1] [0] [0]
  dot_S32x512x512_S32x512x768_S32x512x768_2_1_1_2_0_0_wf : DotDims.WF S32x512x512 S32x512x768 S32x512x768 [2] [1] [1] [2] [0] [0]
  dot_S32x512x512_S32x512x768_S32x512x768_1_1_2_2_0_0_wf : DotDims.WF S32x512x512 S32x512x768 S32x512x768 [1] [1] [2] [2] [0] [0]

variable [Facts₀]

def dot_S32x512x768_S32x512x768_S32x512x512_2_2_1_1_0_0 : DotDims S32x512x768 S32x512x768 S32x512x512 where
  lhsContracting := [2]
  rhsContracting := [2]
  lhsNonContracting := [1]
  rhsNonContracting := [1]
  lhsBatch := [0]
  rhsBatch := [0]
  wf := dot_S32x512x768_S32x512x768_S32x512x512_2_2_1_1_0_0_wf
def dot_S32x512x512_S32x512x768_S32x512x768_2_1_1_2_0_0 : DotDims S32x512x512 S32x512x768 S32x512x768 where
  lhsContracting := [2]
  rhsContracting := [1]
  lhsNonContracting := [1]
  rhsNonContracting := [2]
  lhsBatch := [0]
  rhsBatch := [0]
  wf := dot_S32x512x512_S32x512x768_S32x512x768_2_1_1_2_0_0_wf
def dot_S32x512x512_S32x512x768_S32x512x768_1_1_2_2_0_0 : DotDims S32x512x512 S32x512x768 S32x512x768 where
  lhsContracting := [1]
  rhsContracting := [1]
  lhsNonContracting := [2]
  rhsNonContracting := [2]
  lhsBatch := [0]
  rhsBatch := [0]
  wf := dot_S32x512x512_S32x512x768_S32x512x768_1_1_2_2_0_0_wf

class Facts : Prop extends Facts₀ where

variable [Facts]
-- ==== Proof.RefRun.lean ====
/-
  The reference's run, read back. Its @main is a straight line of 37 host operations: the score matrix of every batch
  element, a softmax of it along each of its two axes (a maximum, an exponential of the difference, a sum, a quotient),
  the two attended arrays, and for each input the concatenation, along the last axis, of the input, its attended array,
  their difference and their product. Every weakly fair execution terminates with each of the two results at the value of
  its last stage (the stage functions of the read module) of the argument arrays, the arguments unchanged.
  A result is a concatenation of four operands: each operand's value is read off the first 33 operations, and the
  concatenation off the last four, whose operands are then the values already named.
-/
import proofs.«104094_j18554258719076_2_alg».proof.Proof.RefRead
import Idealize.ShloMosaic.Lib.StableHlo.Run

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The first 33 operations: everything up to the four operands of the first concatenation. -/
abbrev opsA : List (HloOp τ sig (Elt F)) :=
  [ binary main_arg0 main_arg1 main_v0 ((fun l r => Host.dotGeneral dot_S32x512x768_S32x512x768_S32x512x512_2_2_1_1_0_0 none l r) : (⟨S32x512x768, .f32⟩ : BufTy).Contents (Elt F) → (⟨S32x512x768, .f32⟩ : BufTy).Contents (Elt F) → (⟨S32x512x512, .f32⟩ : BufTy).Contents (Elt F)),
        nullary main_cst (constant S_ .f32 0xFF800000#32),
        binary main_v0 main_cst main_v1 ((fun x v => Host.reduce FloatOps.maximumf x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
        nullary main_cst_0 (constant S_ .f32 0xFF800000#32),
        unary main_cst_0 main_v2 (broadcastInDim S32x512 ![] bcast_S_S32x512 : (⟨S_, .f32⟩ : BufTy).Contents (Elt F) → (⟨S32x512, .f32⟩ : BufTy).Contents (Elt F)),
        binary main_v2 main_v1 main_v3 (maximumf : (⟨S32x512, .f32⟩ : BufTy).Contents (Elt F) → (⟨S32x512, .f32⟩ : BufTy).Contents (Elt F) → (⟨S32x512, .f32⟩ : BufTy).Contents (Elt F)),
        unary main_v3 main_v4 (broadcastInDim S32x512x1 ![0, 1] bcast_S32x512_S32x512x1_0_1 : (⟨S32x512, .f32⟩ : BufTy).Contents (Elt F) → (⟨S32x512x1, .f32⟩ : BufTy).Contents (Elt F)),
        unary main_v4 main_v5 (broadcastInDim S32x512x512 ![0, 1, 2] bcast_S32x512x1_S32x512x512_0_1_2 : (⟨S32x512x1, .f32⟩ : BufTy).Contents (Elt F) → (⟨S32x512x512, .f32⟩ : BufTy).Contents (Elt F)),
        binary main_v0 main_v5 main_v6 (subf : (⟨S32x512x512, .f32⟩ : BufTy).Contents (Elt F) → (⟨S32x512x512, .f32⟩ : BufTy).Contents (Elt F) → (⟨S32x512x512, .f32⟩ : BufTy).Contents (Elt F)),
        unary main_v6 main_v7 (Host.exp : (⟨S32x512x512, .f32⟩ : BufTy).Contents (Elt F) → (⟨S32x512x512, .f32⟩ : BufTy).Contents (Elt F)),
        nullary main_cst_1 (constant S_ .f32 0x00000000#32),
        binary main_v7 main_cst_1 main_v8 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
        unary main_v8 main_v9 (broadcastInDim S32x512x1 ![0, 1] bcast_S32x512_S32x512x1_0_1 : (⟨S32x512, .f32⟩ : BufTy).Contents (Elt F) → (⟨S32x512x1, .f32⟩ : BufTy).Contents (Elt F)),
        unary main_v9 main_v10 (broadcastInDim S32x512x512 ![0, 1, 2] bcast_S32x512x1_S32x512x512_0_1_2 : (⟨S32x512x1, .f32⟩ : BufTy).Contents (Elt F) → (⟨S32x512x512, .f32⟩ : BufTy).Contents (Elt F)),
        binary main_v7 main_v10 main_v11 (Host.divf : (⟨S32x512x512, .f32⟩ : BufTy).Contents (Elt F) → (⟨S32x512x512, .f32⟩ : BufTy).Contents (Elt F) → (⟨S32x512x512, .f32⟩ : BufTy).Contents (Elt F)),
        binary main_v11 main_arg1 main_v12 ((fun l r => Host.dotGeneral dot_S32x512x512_S32x512x768_S32x512x768_2_1_1_2_0_0 none l r) : (⟨S32x512x512, .f32⟩ : BufTy).Contents (Elt F) → (⟨S32x512x768, .f32⟩ : BufTy).Contents (Elt F) → (⟨S32x512x768, .f32⟩ : BufTy).Contents (Elt F)),
        nullary main_cst_2 (constant S_ .f32 0xFF800000#32),
        binary main_v0 main_cst_2 main_v13 ((fun x v => Host.reduce FloatOps.maximumf x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
        nullary main_cst_3 (constant S_ .f32 0xFF800000#32),
        unary main_cst_3 main_v14 (broadcastInDim S32x512 ![] bcast_S_S32x512 : (⟨S_, .f32⟩ : BufTy).Contents (Elt F) → (⟨S32x512, .f32⟩ : BufTy).Contents (Elt F)),
        binary main_v14 main_v13 main_v15 (maximumf : (⟨S32x512, .f32⟩ : BufTy).Contents (Elt F) → (⟨S32x512, .f32⟩ : BufTy).Contents (Elt F) → (⟨S32x512, .f32⟩ : BufTy).Contents (Elt F)),
        unary main_v15 main_v16 (broadcastInDim S32x1x512 ![0, 2] bcast_S32x512_S32x1x512_0_2 : (⟨S32x512, .f32⟩ : BufTy).Contents (Elt F) → (⟨S32x1x512, .f32⟩ : BufTy).Contents (Elt F)),
        unary main_v16 main_v17 (broadcastInDim S32x512x512 ![0, 1, 2] bcast_S32x1x512_S32x512x512_0_1_2 : (⟨S32x1x512, .f32⟩ : BufTy).Contents (Elt F) → (⟨S32x512x512, .f32⟩ : BufTy).Contents (Elt F)),
        binary main_v0 main_v17 main_v18 (subf : (⟨S32x512x512, .f32⟩ : BufTy).Contents (Elt F) → (⟨S32x512x512, .f32⟩ : BufTy).Contents (Elt F) → (⟨S32x512x512, .f32⟩ : BufTy).Contents (Elt F)),
        unary main_v18 main_v19 (Host.exp : (⟨S32x512x512, .f32⟩ : BufTy).Contents (Elt F) → (⟨S32x512x512, .f32⟩ : BufTy).Contents (Elt F)),
        nullary main_cst_4 (constant S_ .f32 0x00000000#32),
        binary main_v19 main_cst_4 main_v20 ((fun x v => Host.reduceAdd x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
        unary main_v20 main_v21 (broadcastInDim S32x1x512 ![0, 2] bcast_S32x512_S32x1x512_0_2 : (⟨S32x512, .f32⟩ : BufTy).Contents (Elt F) → (⟨S32x1x512, .f32⟩ : BufTy).Contents (Elt F)),
        unary main_v21 main_v22 (broadcastInDim S32x512x512 ![0, 1, 2] bcast_S32x1x512_S32x512x512_0_1_2 : (⟨S32x1x512, .f32⟩ : BufTy).Contents (Elt F) → (⟨S32x512x512, .f32⟩ : BufTy).Contents (Elt F)),
        binary main_v19 main_v22 main_v23 (Host.divf : (⟨S32x512x512, .f32⟩ : BufTy).Contents (Elt F) → (⟨S32x512x512, .f32⟩ : BufTy).Contents (Elt F) → (⟨S32x512x512, .f32⟩ : BufTy).Contents (Elt F)),
        binary main_v23 main_arg0 main_v24 ((fun l r => Host.dotGeneral dot_S32x512x512_S32x512x768_S32x512x768_1_1_2_2_0_0 none l r) : (⟨S32x512x512, .f32⟩ : BufTy).Contents (Elt F) → (⟨S32x512x768, .f32⟩ : BufTy).Contents (Elt F) → (⟨S32x512x768, .f32⟩ : BufTy).Contents (Elt F)),
        binary main_arg0 main_v12 main_v25 (subf : (⟨S32x512x768, .f32⟩ : BufTy).Contents (Elt F) → (⟨S32x512x768, .f32⟩ : BufTy).Contents (Elt F) → (⟨S32x512x768, .f32⟩ : BufTy).Contents (Elt F)),
        binary main_arg0 main_v12 main_v26 (mulf : (⟨S32x512x768, .f32⟩ : BufTy).Contents (Elt F) → (⟨S32x512x768, .f32⟩ : BufTy).Contents (Elt F) → (⟨S32x512x768, .f32⟩ : BufTy).Contents (Elt F)) ]

/-- The last four: the first concatenation, the second one's difference and product, the second concatenation. -/
abbrev opsB : List (HloOp τ sig (Elt F)) :=
  [     nary ![main_arg0, main_v12, main_v25, main_v26] main_v27 (fun u => concatenate S32x512x3072 2 [⟨S32x512x768, u 0⟩, ⟨S32x512x768, u 1⟩, ⟨S32x512x768, u 2⟩, ⟨S32x512x768, u 3⟩] concatenates_S32x512x768_S32x512x768_S32x512x768_S32x512x768_S32x512x3072_d2),
        binary main_arg1 main_v24 main_v28 (subf : (⟨S32x512x768, .f32⟩ : BufTy).Contents (Elt F) → (⟨S32x512x768, .f32⟩ : BufTy).Contents (Elt F) → (⟨S32x512x768, .f32⟩ : BufTy).Contents (Elt F)),
        binary main_arg1 main_v24 main_v29 (mulf : (⟨S32x512x768, .f32⟩ : BufTy).Contents (Elt F) → (⟨S32x512x768, .f32⟩ : BufTy).Contents (Elt F) → (⟨S32x512x768, .f32⟩ : BufTy).Contents (Elt F)),
        nary ![main_arg1, main_v24, main_v28, main_v29] main_v30 (fun u => concatenate S32x512x3072 2 [⟨S32x512x768, u 0⟩, ⟨S32x512x768, u 1⟩, ⟨S32x512x768, u 2⟩, ⟨S32x512x768, u 3⟩] concatenates_S32x512x768_S32x512x768_S32x512x768_S32x512x768_S32x512x3072_d2) ]

/-- All but the last: everything up to the four operands of the second concatenation. -/
abbrev opsC : List (HloOp τ sig (Elt F)) :=
  [ binary main_arg0 main_arg1 main_v0 ((fun l r => Host.dotGeneral dot_S32x512x768_S32x512x768_S32x512x512_2_2_1_1_0_0 none l r) : (⟨S32x512x768, .f32⟩ : BufTy).Contents (Elt F) → (⟨S32x512x768, .f32⟩ : BufTy).Contents (Elt F) → (⟨S32x512x512, .f32⟩ : BufTy).Contents (Elt F)),
        nullary main_cst (constant S_ .f32 0xFF800000#32),
        binary main_v0 main_cst main_v1 ((fun x v => Host.reduce FloatOps.maximumf x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
        nullary main_cst_0 (constant S_ .f32 0xFF800000#32),
        unary main_cst_0 main_v2 (broadcastInDim S32x512 ![] bcast_S_S32x512 : (⟨S_, .f32⟩ : BufTy).Contents (Elt F) → (⟨S32x512, .f32⟩ : BufTy).Contents (Elt F)),
        binary main_v2 main_v1 main_v3 (maximumf : (⟨S32x512, .f32⟩ : BufTy).Contents (Elt F) → (⟨S32x512, .f32⟩ : BufTy).Contents (Elt F) → (⟨S32x512, .f32⟩ : BufTy).Contents (Elt F)),
        unary main_v3 main_v4 (broadcastInDim S32x512x1 ![0, 1] bcast_S32x512_S32x512x1_0_1 : (⟨S32x512, .f32⟩ : BufTy).Contents (Elt F) → (⟨S32x512x1, .f32⟩ : BufTy).Contents (Elt F)),
        unary main_v4 main_v5 (broadcastInDim S32x512x512 ![0, 1, 2] bcast_S32x512x1_S32x512x512_0_1_2 : (⟨S32x512x1, .f32⟩ : BufTy).Contents (Elt F) → (⟨S32x512x512, .f32⟩ : BufTy).Contents (Elt F)),
        binary main_v0 main_v5 main_v6 (subf : (⟨S32x512x512, .f32⟩ : BufTy).Contents (Elt F) → (⟨S32x512x512, .f32⟩ : BufTy).Contents (Elt F) → (⟨S32x512x512, .f32⟩ : BufTy).Contents (Elt F)),
        unary main_v6 main_v7 (Host.exp : (⟨S32x512x512, .f32⟩ : BufTy).Contents (Elt F) → (⟨S32x512x512, .f32⟩ : BufTy).Contents (Elt F)),
        nullary main_cst_1 (constant S_ .f32 0x00000000#32),
        binary main_v7 main_cst_1 main_v8 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
        unary main_v8 main_v9 (broadcastInDim S32x512x1 ![0, 1] bcast_S32x512_S32x512x1_0_1 : (⟨S32x512, .f32⟩ : BufTy).Contents (Elt F) → (⟨S32x512x1, .f32⟩ : BufTy).Contents (Elt F)),
        unary main_v9 main_v10 (broadcastInDim S32x512x512 ![0, 1, 2] bcast_S32x512x1_S32x512x512_0_1_2 : (⟨S32x512x1, .f32⟩ : BufTy).Contents (Elt F) → (⟨S32x512x512, .f32⟩ : BufTy).Contents (Elt F)),
        binary main_v7 main_v10 main_v11 (Host.divf : (⟨S32x512x512, .f32⟩ : BufTy).Contents (Elt F) → (⟨S32x512x512, .f32⟩ : BufTy).Contents (Elt F) → (⟨S32x512x512, .f32⟩ : BufTy).Contents (Elt F)),
        binary main_v11 main_arg1 main_v12 ((fun l r => Host.dotGeneral dot_S32x512x512_S32x512x768_S32x512x768_2_1_1_2_0_0 none l r) : (⟨S32x512x512, .f32⟩ : BufTy).Contents (Elt F) → (⟨S32x512x768, .f32⟩ : BufTy).Contents (Elt F) → (⟨S32x512x768, .f32⟩ : BufTy).Contents (Elt F)),
        nullary main_cst_2 (constant S_ .f32 0xFF800000#32),
        binary main_v0 main_cst_2 main_v13 ((fun x v => Host.reduce FloatOps.maximumf x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
        nullary main_cst_3 (constant S_ .f32 0xFF800000#32),
        unary main_cst_3 main_v14 (broadcastInDim S32x512 ![] bcast_S_S32x512 : (⟨S_, .f32⟩ : BufTy).Contents (Elt F) → (⟨S32x512, .f32⟩ : BufTy).Contents (Elt F)),
        binary main_v14 main_v13 main_v15 (maximumf : (⟨S32x512, .f32⟩ : BufTy).Contents (Elt F) → (⟨S32x512, .f32⟩ : BufTy).Contents (Elt F) → (⟨S32x512, .f32⟩ : BufTy).Contents (Elt F)),
        unary main_v15 main_v16 (broadcastInDim S32x1x512 ![0, 2] bcast_S32x512_S32x1x512_0_2 : (⟨S32x512, .f32⟩ : BufTy).Contents (Elt F) → (⟨S32x1x512, .f32⟩ : BufTy).Contents (Elt F)),
        unary main_v16 main_v17 (broadcastInDim S32x512x512 ![0, 1, 2] bcast_S32x1x512_S32x512x512_0_1_2 : (⟨S32x1x512, .f32⟩ : BufTy).Contents (Elt F) → (⟨S32x512x512, .f32⟩ : BufTy).Contents (Elt F)),
        binary main_v0 main_v17 main_v18 (subf : (⟨S32x512x512, .f32⟩ : BufTy).Contents (Elt F) → (⟨S32x512x512, .f32⟩ : BufTy).Contents (Elt F) → (⟨S32x512x512, .f32⟩ : BufTy).Contents (Elt F)),
        unary main_v18 main_v19 (Host.exp : (⟨S32x512x512, .f32⟩ : BufTy).Contents (Elt F) → (⟨S32x512x512, .f32⟩ : BufTy).Contents (Elt F)),
        nullary main_cst_4 (constant S_ .f32 0x00000000#32),
        binary main_v19 main_cst_4 main_v20 ((fun x v => Host.reduceAdd x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
        unary main_v20 main_v21 (broadcastInDim S32x1x512 ![0, 2] bcast_S32x512_S32x1x512_0_2 : (⟨S32x512, .f32⟩ : BufTy).Contents (Elt F) → (⟨S32x1x512, .f32⟩ : BufTy).Contents (Elt F)),
        unary main_v21 main_v22 (broadcastInDim S32x512x512 ![0, 1, 2] bcast_S32x1x512_S32x512x512_0_1_2 : (⟨S32x1x512, .f32⟩ : BufTy).Contents (Elt F) → (⟨S32x512x512, .f32⟩ : BufTy).Contents (Elt F)),
        binary main_v19 main_v22 main_v23 (Host.divf : (⟨S32x512x512, .f32⟩ : BufTy).Contents (Elt F) → (⟨S32x512x512, .f32⟩ : BufTy).Contents (Elt F) → (⟨S32x512x512, .f32⟩ : BufTy).Contents (Elt F)),
        binary main_v23 main_arg0 main_v24 ((fun l r => Host.dotGeneral dot_S32x512x512_S32x512x768_S32x512x768_1_1_2_2_0_0 none l r) : (⟨S32x512x512, .f32⟩ : BufTy).Contents (Elt F) → (⟨S32x512x768, .f32⟩ : BufTy).Contents (Elt F) → (⟨S32x512x768, .f32⟩ : BufTy).Contents (Elt F)),
        binary main_arg0 main_v12 main_v25 (subf : (⟨S32x512x768, .f32⟩ : BufTy).Contents (Elt F) → (⟨S32x512x768, .f32⟩ : BufTy).Contents (Elt F) → (⟨S32x512x768, .f32⟩ : BufTy).Contents (Elt F)),
        binary main_arg0 main_v12 main_v26 (mulf : (⟨S32x512x768, .f32⟩ : BufTy).Contents (Elt F) → (⟨S32x512x768, .f32⟩ : BufTy).Contents (Elt F) → (⟨S32x512x768, .f32⟩ : BufTy).Contents (Elt F)),
        nary ![main_arg0, main_v12, main_v25, main_v26] main_v27 (fun u => concatenate S32x512x3072 2 [⟨S32x512x768, u 0⟩, ⟨S32x512x768, u 1⟩, ⟨S32x512x768, u 2⟩, ⟨S32x512x768, u 3⟩] concatenates_S32x512x768_S32x512x768_S32x512x768_S32x512x768_S32x512x3072_d2),
        binary main_arg1 main_v24 main_v28 (subf : (⟨S32x512x768, .f32⟩ : BufTy).Contents (Elt F) → (⟨S32x512x768, .f32⟩ : BufTy).Contents (Elt F) → (⟨S32x512x768, .f32⟩ : BufTy).Contents (Elt F)),
        binary main_arg1 main_v24 main_v29 (mulf : (⟨S32x512x768, .f32⟩ : BufTy).Contents (Elt F) → (⟨S32x512x768, .f32⟩ : BufTy).Contents (Elt F) → (⟨S32x512x768, .f32⟩ : BufTy).Contents (Elt F)) ]

/-- @main's 37 operations, in order. -/
abbrev ops : List (HloOp τ sig (Elt F)) :=
  [ binary main_arg0 main_arg1 main_v0 ((fun l r => Host.dotGeneral dot_S32x512x768_S32x512x768_S32x512x512_2_2_1_1_0_0 none l r) : (⟨S32x512x768, .f32⟩ : BufTy).Contents (Elt F) → (⟨S32x512x768, .f32⟩ : BufTy).Contents (Elt F) → (⟨S32x512x512, .f32⟩ : BufTy).Contents (Elt F)),
        nullary main_cst (constant S_ .f32 0xFF800000#32),
        binary main_v0 main_cst main_v1 ((fun x v => Host.reduce FloatOps.maximumf x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
        nullary main_cst_0 (constant S_ .f32 0xFF800000#32),
        unary main_cst_0 main_v2 (broadcastInDim S32x512 ![] bcast_S_S32x512 : (⟨S_, .f32⟩ : BufTy).Contents (Elt F) → (⟨S32x512, .f32⟩ : BufTy).Contents (Elt F)),
        binary main_v2 main_v1 main_v3 (maximumf : (⟨S32x512, .f32⟩ : BufTy).Contents (Elt F) → (⟨S32x512, .f32⟩ : BufTy).Contents (Elt F) → (⟨S32x512, .f32⟩ : BufTy).Contents (Elt F)),
        unary main_v3 main_v4 (broadcastInDim S32x512x1 ![0, 1] bcast_S32x512_S32x512x1_0_1 : (⟨S32x512, .f32⟩ : BufTy).Contents (Elt F) → (⟨S32x512x1, .f32⟩ : BufTy).Contents (Elt F)),
        unary main_v4 main_v5 (broadcastInDim S32x512x512 ![0, 1, 2] bcast_S32x512x1_S32x512x512_0_1_2 : (⟨S32x512x1, .f32⟩ : BufTy).Contents (Elt F) → (⟨S32x512x512, .f32⟩ : BufTy).Contents (Elt F)),
        binary main_v0 main_v5 main_v6 (subf : (⟨S32x512x512, .f32⟩ : BufTy).Contents (Elt F) → (⟨S32x512x512, .f32⟩ : BufTy).Contents (Elt F) → (⟨S32x512x512, .f32⟩ : BufTy).Contents (Elt F)),
        unary main_v6 main_v7 (Host.exp : (⟨S32x512x512, .f32⟩ : BufTy).Contents (Elt F) → (⟨S32x512x512, .f32⟩ : BufTy).Contents (Elt F)),
        nullary main_cst_1 (constant S_ .f32 0x00000000#32),
        binary main_v7 main_cst_1 main_v8 ((fun x v => Host.reduceAdd x v reducesTo_S32x512x512_S32x512_d2 h_S_) : (⟨S32x512x512, .f32⟩ : BufTy).Contents (Elt F) → (⟨S_, .f32⟩ : BufTy).Contents (Elt F) → (⟨S32x512, .f32⟩ : BufTy).Contents (Elt F)),
        unary main_v8 main_v9 (broadcastInDim S32x512x1 ![0, 1] bcast_S32x512_S32x512x1_0_1 : (⟨S32x512, .f32⟩ : BufTy).Contents (Elt F) → (⟨S32x512x1, .f32⟩ : BufTy).Contents (Elt F)),
        unary main_v9 main_v10 (broadcastInDim S32x512x512 ![0, 1, 2] bcast_S32x512x1_S32x512x512_0_1_2 : (⟨S32x512x1, .f32⟩ : BufTy).Contents (Elt F) → (⟨S32x512x512, .f32⟩ : BufTy).Contents (Elt F)),
        binary main_v7 main_v10 main_v11 (Host.divf : (⟨S32x512x512, .f32⟩ : BufTy).Contents (Elt F) → (⟨S32x512x512, .f32⟩ : BufTy).Contents (Elt F) → (⟨S32x512x512, .f32⟩ : BufTy).Contents (Elt F)),
        binary main_v11 main_arg1 main_v12 ((fun l r => Host.dotGeneral dot_S32x512x512_S32x512x768_S32x512x768_2_1_1_2_0_0 none l r) : (⟨S32x512x512, .f32⟩ : BufTy).Contents (Elt F) → (⟨S32x512x768, .f32⟩ : BufTy).Contents (Elt F) → (⟨S32x512x768, .f32⟩ : BufTy).Contents (Elt F)),
        nullary main_cst_2 (constant S_ .f32 0xFF800000#32),
        binary main_v0 main_cst_2 main_v13 ((fun x v => Host.reduce FloatOps.maximumf x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
        nullary main_cst_3 (constant S_ .f32 0xFF800000#32),
        unary main_cst_3 main_v14 (broadcastInDim S32x512 ![] bcast_S_S32x512 : (⟨S_, .f32⟩ : BufTy).Contents (Elt F) → (⟨S32x512, .f32⟩ : BufTy).Contents (Elt F)),
        binary main_v14 main_v13 main_v15 (maximumf : (⟨S32x512, .f32⟩ : BufTy).Contents (Elt F) → (⟨S32x512, .f32⟩ : BufTy).Contents (Elt F) → (⟨S32x512, .f32⟩ : BufTy).Contents (Elt F)),
        unary main_v15 main_v16 (broadcastInDim S32x1x512 ![0, 2] bcast_S32x512_S32x1x512_0_2 : (⟨S32x512, .f32⟩ : BufTy).Contents (Elt F) → (⟨S32x1x512, .f32⟩ : BufTy).Contents (Elt F)),
        unary main_v16 main_v17 (broadcastInDim S32x512x512 ![0, 1, 2] bcast_S32x1x512_S32x512x512_0_1_2 : (⟨S32x1x512, .f32⟩ : BufTy).Contents (Elt F) → (⟨S32x512x512, .f32⟩ : BufTy).Contents (Elt F)),
        binary main_v0 main_v17 main_v18 (subf : (⟨S32x512x512, .f32⟩ : BufTy).Contents (Elt F) → (⟨S32x512x512, .f32⟩ : BufTy).Contents (Elt F) → (⟨S32x512x512, .f32⟩ : BufTy).Contents (Elt F)),
        unary main_v18 main_v19 (Host.exp : (⟨S32x512x512, .f32⟩ : BufTy).Contents (Elt F) → (⟨S32x512x512, .f32⟩ : BufTy).Contents (Elt F)),
        nullary main_cst_4 (constant S_ .f32 0x00000000#32),
        binary main_v19 main_cst_4 main_v20 ((fun x v => Host.reduceAdd x v reducesTo_S32x512x512_S32x512_d1 h_S_) : (⟨S32x512x512, .f32⟩ : BufTy).Contents (Elt F) → (⟨S_, .f32⟩ : BufTy).Contents (Elt F) → (⟨S32x512, .f32⟩ : BufTy).Contents (Elt F)),
        unary main_v20 main_v21 (broadcastInDim S32x1x512 ![0, 2] bcast_S32x512_S32x1x512_0_2 : (⟨S32x512, .f32⟩ : BufTy).Contents (Elt F) → (⟨S32x1x512, .f32⟩ : BufTy).Contents (Elt F)),
        unary main_v21 main_v22 (broadcastInDim S32x512x512 ![0, 1, 2] bcast_S32x1x512_S32x512x512_0_1_2 : (⟨S32x1x512, .f32⟩ : BufTy).Contents (Elt F) → (⟨S32x512x512, .f32⟩ : BufTy).Contents (Elt F)),
        binary main_v19 main_v22 main_v23 (Host.divf : (⟨S32x512x512, .f32⟩ : BufTy).Contents (Elt F) → (⟨S32x512x512, .f32⟩ : BufTy).Contents (Elt F) → (⟨S32x512x512, .f32⟩ : BufTy).Contents (Elt F)),
        binary main_v23 main_arg0 main_v24 ((fun l r => Host.dotGeneral dot_S32x512x512_S32x512x768_S32x512x768_1_1_2_2_0_0 none l r) : (⟨S32x512x512, .f32⟩ : BufTy).Contents (Elt F) → (⟨S32x512x768, .f32⟩ : BufTy).Contents (Elt F) → (⟨S32x512x768, .f32⟩ : BufTy).Contents (Elt F)),
        binary main_arg0 main_v12 main_v25 (subf : (⟨S32x512x768, .f32⟩ : BufTy).Contents (Elt F) → (⟨S32x512x768, .f32⟩ : BufTy).Contents (Elt F) → (⟨S32x512x768, .f32⟩ : BufTy).Contents (Elt F)),
        binary main_arg0 main_v12 main_v26 (mulf : (⟨S32x512x768, .f32⟩ : BufTy).Contents (Elt F) → (⟨S32x512x768, .f32⟩ : BufTy).Contents (Elt F) → (⟨S32x512x768, .f32⟩ : BufTy).Contents (Elt F)),
        nary ![main_arg0, main_v12, main_v25, main_v26] main_v27 (fun u => concatenate S32x512x3072 2 [⟨S32x512x768, u 0⟩, ⟨S32x512x768, u 1⟩, ⟨S32x512x768, u 2⟩, ⟨S32x512x768, u 3⟩] concatenates_S32x512x768_S32x512x768_S32x512x768_S32x512x768_S32x512x3072_d2),
        binary main_arg1 main_v24 main_v28 (subf : (⟨S32x512x768, .f32⟩ : BufTy).Contents (Elt F) → (⟨S32x512x768, .f32⟩ : BufTy).Contents (Elt F) → (⟨S32x512x768, .f32⟩ : BufTy).Contents (Elt F)),
        binary main_arg1 main_v24 main_v29 (mulf : (⟨S32x512x768, .f32⟩ : BufTy).Contents (Elt F) → (⟨S32x512x768, .f32⟩ : BufTy).Contents (Elt F) → (⟨S32x512x768, .f32⟩ : BufTy).Contents (Elt F)),
        nary ![main_arg1, main_v24, main_v28, main_v29] main_v30 (fun u => concatenate S32x512x3072 2 [⟨S32x512x768, u 0⟩, ⟨S32x512x768, u 1⟩, ⟨S32x512x768, u 2⟩, ⟨S32x512x768, u 3⟩] concatenates_S32x512x768_S32x512x768_S32x512x768_S32x512x768_S32x512x3072_d2) ]

theorem ops_split : (ops : List (HloOp τ sig (Elt F))) = opsA ++ opsB := rfl
theorem ops_split_last : (ops : List (HloOp τ sig (Elt F))) = opsC ++ [    nary ![main_arg1, main_v24, main_v28, main_v29] main_v30 (fun u => concatenate S32x512x3072 2 [⟨S32x512x768, u 0⟩, ⟨S32x512x768, u 1⟩, ⟨S32x512x768, u 2⟩, ⟨S32x512x768, u 3⟩] concatenates_S32x512x768_S32x512x768_S32x512x768_S32x512x768_S32x512x3072_d2)] := rfl

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., binary_bufs_sub .., binary_bufs_sub .., nary_bufs_sub .., binary_bufs_sub .., binary_bufs_sub .., nary_bufs_sub ..⟩

/-- The contents after two lines of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ) (c : Dev nD)

/-! ## The operands of the two concatenations, after the first 33 operations -/

theorem opnd_arg0 : after (opsA (F := F)) (launchContents m c) (Proc.devRef .tc main_arg0) = m ((c.tc : Thread nD τ).loc main_arg0) := by
  after_results_simp <;> rfl
set_option maxHeartbeats 1000000 in
theorem opnd_v12 : after (opsA (F := F)) (launchContents m c) (Proc.devRef .tc main_v12)
    = val_main_v12 (F := F) (m ((c.tc : Thread nD τ).loc main_arg0)) (m ((c.tc : Thread nD τ).loc main_arg1)) := by
  after_results_simp <;> rfl
set_option maxHeartbeats 1000000 in
theorem opnd_v25 : after (opsA (F := F)) (launchContents m c) (Proc.devRef .tc main_v25)
    = val_main_v25 (F := F) (m ((c.tc : Thread nD τ).loc main_arg0)) (m ((c.tc : Thread nD τ).loc main_arg1)) := by
  after_results_simp <;> rfl
set_option maxHeartbeats 1000000 in
theorem opnd_v26 : after (opsA (F := F)) (launchContents m c) (Proc.devRef .tc main_v26)
    = val_main_v26 (F := F) (m ((c.tc : Thread nD τ).loc main_arg0)) (m ((c.tc : Thread nD τ).loc main_arg1)) := by
  after_results_simp <;> rfl
/-! ## The operands of the second concatenation, after all but the last operation -/

theorem opnd2_arg1 : after (opsC (F := F)) (launchContents m c) (Proc.devRef .tc main_arg1) = m ((c.tc : Thread nD τ).loc main_arg1) := by
  after_results_simp <;> rfl
set_option maxHeartbeats 1000000 in
theorem opnd2_v24 : after (opsC (F := F)) (launchContents m c) (Proc.devRef .tc main_v24)
    = val_main_v24 (F := F) (m ((c.tc : Thread nD τ).loc main_arg0)) (m ((c.tc : Thread nD τ).loc main_arg1)) := by
  after_results_simp <;> rfl
set_option maxHeartbeats 1000000 in
theorem opnd2_v28 : after (opsC (F := F)) (launchContents m c) (Proc.devRef .tc main_v28)
    = val_main_v28 (F := F) (m ((c.tc : Thread nD τ).loc main_arg0)) (m ((c.tc : Thread nD τ).loc main_arg1)) := by
  after_results_simp <;> rfl
set_option maxHeartbeats 1000000 in
theorem opnd2_v29 : after (opsC (F := F)) (launchContents m c) (Proc.devRef .tc main_v29)
    = val_main_v29 (F := F) (m ((c.tc : Thread nD τ).loc main_arg0)) (m ((c.tc : Thread nD τ).loc main_arg1)) := by
  after_results_simp <;> rfl

/-! ## The two results -/

set_option maxHeartbeats 1000000 in
/-- The first result: the concatenation of the first input, its attended array, their difference and their product. -/
theorem res27_eq : after (ops (F := F)) (launchContents m c) (Proc.devRef .tc main_v27)
    = val_main_v27 (F := F) (m ((c.tc : Thread nD τ).loc main_arg0)) (m ((c.tc : Thread nD τ).loc main_arg1)) := by
  rw [ops_split, after_append]
  have e0 := opnd_arg0 m c
  have e12 := opnd_v12 m c
  have e25 := opnd_v25 m c
  have e26 := opnd_v26 m c
  generalize after (opsA (F := F)) (launchContents m c) = W at e0 e12 e25 e26 ⊢
  simp only [after_cons, after_nil]
  rw [nary_result_ne]; rotate_left; decide
  rw [binary_result_ne]; rotate_left; decide
  rw [binary_result_ne]; rotate_left; decide
  rw [nary4_result]
  show concatenate S32x512x3072 2 [⟨S32x512x768, W (Proc.devRef .tc main_arg0)⟩, ⟨S32x512x768, W (Proc.devRef .tc main_v12)⟩,
    ⟨S32x512x768, W (Proc.devRef .tc main_v25)⟩, ⟨S32x512x768, W (Proc.devRef .tc main_v26)⟩]
    concatenates_S32x512x768_S32x512x768_S32x512x768_S32x512x768_S32x512x3072_d2 = _
  rw [e0, e12, e25, e26]
  rfl

set_option maxHeartbeats 1000000 in
/-- The second result: the same of the second input; its difference and product are among the last four operations. -/
theorem res30_eq : after (ops (F := F)) (launchContents m c) (Proc.devRef .tc main_v30)
    = val_main_v30 (F := F) (m ((c.tc : Thread nD τ).loc main_arg0)) (m ((c.tc : Thread nD τ).loc main_arg1)) := by
  rw [ops_split_last, after_append]
  have e1 := opnd2_arg1 m c
  have e24 := opnd2_v24 m c
  have e28 := opnd2_v28 m c
  have e29 := opnd2_v29 m c
  generalize after (opsC (F := F)) (launchContents m c) = W at e1 e24 e28 e29 ⊢
  simp only [after_cons, after_nil]
  rw [nary4_result]
  show concatenate S32x512x3072 2 [⟨S32x512x768, W (Proc.devRef .tc main_arg1)⟩, ⟨S32x512x768, W (Proc.devRef .tc main_v24)⟩,
    ⟨S32x512x768, W (Proc.devRef .tc main_v28)⟩, ⟨S32x512x768, W (Proc.devRef .tc main_v29)⟩]
    concatenates_S32x512x768_S32x512x768_S32x512x768_S32x512x768_S32x512x3072_d2 = _
  rw [e1, e24, e28, e29]
  rfl

/-- An argument array is written by no operation. -/
theorem kept_arg0 : after (ops (F := F)) (launchContents m c) (Proc.devRef .tc main_arg0) = m ((c.tc : Thread nD τ).loc main_arg0) := by
  after_results_simp <;> rfl
theorem kept_arg1 : after (ops (F := F)) (launchContents m c) (Proc.devRef .tc main_arg1) = m ((c.tc : Thread nD τ).loc main_arg1) := by
  after_results_simp <;> rfl

/-- On every device, from any memory with zero counters: every weakly fair execution of @main terminates with each result at
    its last stage's value of the arguments, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v27) = val_main_v27 (F := F) (m ((c.tc : Thread nD τ).loc main_arg0)) (m ((c.tc : Thread nD τ).loc main_arg1))
      ∧ r.2.mem ((c.tc : Thread nD τ).loc main_v30) = val_main_v30 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v27).trans (res27_eq m c), (h c main_v30).trans (res30_eq m c),
      (h c main_arg0).trans (kept_arg0 m c), (h c main_arg1).trans (kept_arg1 m c)⟩)
    (run_seq scopedRefs_eq scopedSems_eq defs main (fun _ => ops) main_eq (fun _ => ops_sub) m ρ)

end Cert.ReferenceIdeal.RefRun

end
-- ==== Proof.Align.lean ====
/-
  Soft alignment of two sequences on the extended reals.

  For one batch element, two matrices `a b : [512, 768]` (rows are positions, columns are features):
  the score of positions `p` of `a` and `q` of `b` is the inner product of their rows; a softmax of the score matrix along
  `q` (a row's maximum taken as a fold of `max` from minus infinity, the exponential of the difference, the row's sum, the
  quotient) weights the rows of `b` into the array aligned with `a`, and a softmax along `p` weights the rows of `a` into the
  array aligned with `b`. Each output row is four bands of 768 columns: the input, the aligned array, their difference
  and their product.

  Nothing here needs an entry to be finite: both programs compute these very terms, operation by operation, and the
  statements below only name them.
-/
import Idealize.ShloMosaic.PureOps.Ideal
import Idealize.ShloMosaic.PureOps.Ideal.Laws
import Idealize.ShloMosaic.Lib.ValueIdx

noncomputable section

namespace Cert.Align

open Idealize.ShloMosaic Idealize.ShloMosaic.ValueIdx

/-- The value of the word of minus infinity. -/
abbrev negInf : EReal := Ideal.ofBits .f32 0xFF800000#32

/-! ## One batch element -/

section One

variable (a b : Fin 512 → Fin 768 → EReal)

/-- The score of position `p` of `a` against position `q` of `b`: the inner product of the two rows. -/
def score (p q : Fin 512) : EReal := ∑ d : Fin 768, a p d * b q d

end One

/-! ## The two softmaxes of a score matrix -/

section Soft

variable (E : Fin 512 → Fin 512 → EReal)

/-- The maximum of row `p`. -/
def rowMax (p : Fin 512) : EReal := (Finset.univ : Finset (Fin 512)).fold max negInf (fun q => E p q)
/-- The shifted exponentials of row `p`. -/
def rowExp (p q : Fin 512) : EReal := Ideal.exp (E p q - rowMax E p)
/-- Their sum over the row. -/
def rowSum (p : Fin 512) : EReal := ∑ q : Fin 512, rowExp E p q
/-- The softmax along `q`. -/
def rowSoft (p q : Fin 512) : EReal := Ideal.div (rowExp E p q) (rowSum E p)

/-- The maximum of column `q`. -/
def colMax (q : Fin 512) : EReal := (Finset.univ : Finset (Fin 512)).fold max negInf (fun p => E p q)
/-- The shifted exponentials of column `q`. -/
def colExp (p q : Fin 512) : EReal := Ideal.exp (E p q - colMax E q)
/-- Their sum over the column. -/
def colSum (q : Fin 512) : EReal := ∑ p : Fin 512, colExp E p q
/-- The softmax along `p`. -/
def colSoft (p q : Fin 512) : EReal := Ideal.div (colExp E p q) (colSum E q)

end Soft

/-! ## The aligned arrays -/

section Aligned

variable (a b : Fin 512 → Fin 768 → EReal)

/-- The array aligned with `a`: the rows of `b` weighted by the softmax of the scores along `q`. -/
def alignedA (p : Fin 512) (d : Fin 768) : EReal := ∑ q : Fin 512, rowSoft (score a b) p q * b q d
/-- The array aligned with `b`: the rows of `a` weighted by the softmax of the scores along `p`. -/
def alignedB (q : Fin 512) (d : Fin 768) : EReal := ∑ p : Fin 512, colSoft (score a b) p q * a p d

end Aligned

/-! ## The four bands of an output row -/

/-- Band `s` of an input entry `x` and its aligned entry `y`: `x`, `y`, `x - y`, `x * y`. -/
def band (x y : EReal) : Fin 4 → EReal
  | 0 => x
  | 1 => y
  | 2 => x - y
  | 3 => x * y

/-- An output row at column `j`: band `j / 768` of the input row and the aligned row at feature `j % 768`. -/
def bandAt (x y : Fin 768 → EReal) (j : ℕ) : EReal :=
  band (x ⟨j % 768, Nat.mod_lt _ (by decide)⟩) (y ⟨j % 768, Nat.mod_lt _ (by decide)⟩) ⟨j / 768 % 4, Nat.mod_lt _ (by decide)⟩

/-- Column `768 s + d` is band `s` at feature `d`. -/
theorem bandAt_eq (x y : Fin 768 → EReal) (s : Fin 4) (d : Fin 768) (j : ℕ) (hj : j = 768 * s.val + d.val) :
    bandAt x y j = band (x d) (y d) s := by
  have hd : (⟨j % 768, Nat.mod_lt _ (by decide)⟩ : Fin 768) = d :=
    Fin.ext (by have := d.isLt; show j % 768 = d.val; omega)
  have hs : (⟨j / 768 % 4, Nat.mod_lt _ (by decide)⟩ : Fin 4) = s :=
    Fin.ext (by have := d.isLt; have := s.isLt; show j / 768 % 4 = s.val; omega)
  unfold bandAt
  rw [hd, hs]

/-! ## The batch -/

/-- An input array `[32, 512, 768]`. -/
abbrev Arr := (⟨3, ![32, 512, 768]⟩ : Shape).Idx → EReal
/-- An output array `[32, 512, 3072]`. -/
abbrev Out := (⟨3, ![32, 512, 3072]⟩ : Shape).Idx → EReal

/-- Batch element `t` of an input array. -/
def slab (A : Arr) (t : Fin 32) : Fin 512 → Fin 768 → EReal := fun p d => A (ix3 t p d)

/-- One output row: at column `j`, band `j / 768` of row `p` of the input `X` and of its aligned array `Y`, at feature `j % 768`. -/
def rowOut (X Y : Fin 512 → Fin 768 → EReal) (p : Fin 512) (j : ℕ) : EReal := bandAt (X p) (Y p) j

/-- Column `768 s + d` of an output row is band `s` at feature `d`. -/
theorem rowOut_eq (X Y : Fin 512 → Fin 768 → EReal) (p : Fin 512) (s : Fin 4) (d : Fin 768) (j : ℕ) (hj : j = 768 * s.val + d.val) :
    rowOut X Y p j = band (X p d) (Y p d) s := bandAt_eq _ _ s d j hj

/-- The first result: per batch element and position, the four bands of the first input against its aligned array. -/
def outA (A B : Arr) : Out := fun i =>
  rowOut (slab A (i 0)) (alignedA (slab A (i 0)) (slab B (i 0))) (i 1) (i 2).val

/-- The second result: the same of the second input. -/
def outB (A B : Arr) : Out := fun i =>
  rowOut (slab B (i 0)) (alignedB (slab A (i 0)) (slab B (i 0))) (i 1) (i 2).val

/-- The first result at an index given by its coordinates. -/
theorem outA_at (A B : Arr) (i : (⟨3, ![32, 512, 3072]⟩ : Shape).Idx) (t : Fin 32) (p : Fin 512) (j : ℕ)
    (h0 : i 0 = t) (h1 : i 1 = p) (h2 : (i 2).val = j) :
    outA A B i = rowOut (slab A t) (alignedA (slab A t) (slab B t)) p j := by
  subst h0 h1 h2; rfl

/-- The second result at an index given by its coordinates. -/
theorem outB_at (A B : Arr) (i : (⟨3, ![32, 512, 3072]⟩ : Shape).Idx) (t : Fin 32) (p : Fin 512) (j : ℕ)
    (h0 : i 0 = t) (h1 : i 1 = p) (h2 : (i 2).val = j) :
    outB A B i = rowOut (slab B t) (alignedB (slab A t) (slab B t)) p j := by
  subst h0 h1 h2; rfl

end Cert.Align

end
-- ==== Proof.RefValue.lean ====
/-
  The reference computes the soft alignment. Stage by stage, at an index: the first `dot_general` is the score of a batch
  element's two positions; each `reduce` with `maximum`, joined once more with minus infinity, is a row's or a column's
  maximum (a fold of `max` from minus infinity is never below minus infinity); the exponentials, the sums from zero and the
  quotients are the two softmaxes; the two later `dot_general`s are the aligned arrays; and each concatenation along the last
  axis reads, at column `768 s + d`, its operand `s` at feature `d`.
-/
import proofs.«104094_j18554258719076_2_alg».proof.Proof.RefRead
import proofs.«104094_j18554258719076_2_alg».proof.Proof.Align
import Idealize.ShloMosaic.Lib.Pipeline.Value

noncomputable section

namespace Cert.ReferenceIdeal.RefValue

open Cert.ReferenceIdeal Cert.ReferenceIdeal.Gen Cert.ReferenceIdeal.ReadP Cert.Align
open Idealize.ShloMosaic Idealize.ShloMosaic.ValueIdx

local macro "coords3" : tactic =>
  `(tactic| (funext a; match a with | ⟨0, _⟩ => rfl | ⟨1, _⟩ => rfl | ⟨2, _⟩ => rfl))
local macro "coords2" : tactic =>
  `(tactic| (funext a; match a with | ⟨0, _⟩ => rfl | ⟨1, _⟩ => rfl))

variable (A B : Arr)

/-! ## The scores -/

/-- The first product, at batch element `t`, positions `p` and `q`: the inner product of the two rows. -/
theorem score_eq (t : Fin 32) (p q : Fin 512) :
    val_main_v0 (F := Ideal) A B (ix3 t p q) = score (slab A t) (slab B t) p q := by
  rw [val_main_v0_apply]
  exact Finset.sum_congr rfl fun k _ => by
    rw [show lidx_main_v0 (ix3 t p q) k = ix3 t p k from by coords3,
      show ridx_main_v0 (ix3 t p q) k = ix3 t q k from by coords3]
    rfl

/-- Over an index of `[32, 512]`, the index of `[32, 512, 512]` with `q` inserted last. -/
theorem lift_last (h : S32x512x512.Reduces [2] S32x512) (t : Fin 32) (p q : Fin 512) : h.lift (ix2 t p) q = ix3 t p q :=
  funext fun a => Fin.ext (by match a with | ⟨0, _⟩ => rfl | ⟨1, _⟩ => rfl | ⟨2, _⟩ => rfl)
/-- Over an index of `[32, 512]`, the index of `[32, 512, 512]` with `p` inserted in the middle. -/
theorem lift_mid (h : S32x512x512.Reduces [1] S32x512) (t : Fin 32) (q p : Fin 512) : h.lift (ix2 t q) p = ix3 t p q :=
  funext fun a => Fin.ext (by match a with | ⟨0, _⟩ => rfl | ⟨1, _⟩ => rfl | ⟨2, _⟩ => rfl)

/-! ## The softmax along the second sequence, and the array aligned with the first -/

/-- The joined maximum over `q`: the row's maximum. -/
theorem rowMax_eq (t : Fin 32) (p : Fin 512) :
    val_main_v3 (F := Ideal) A B (ix2 t p) = rowMax (score (slab A t) (slab B t)) p := by
  rw [val_main_v3_apply, val_main_v2_apply, val_main_cst_0_apply]
  unfold val_main_v1
  rw [Host.reduce_eq_fold_single FloatOps.maximumf _ _ reducesTo_S32x512x512_S32x512_d2 (by decide) h_S_]
  have hfold : (Finset.univ : Finset (Fin 512)).fold max negInf
      (val_main_v0 (F := Ideal) A B ∘ (Shape.Reduces.lift (s := S32x512x512) (t := S32x512) (a := (2 : Fin 3)) (by decide) (ix2 t p)))
      = rowMax (score (slab A t) (slab B t)) p :=
    Finset.fold_congr fun q _ => (congrArg (val_main_v0 (F := Ideal) A B) (lift_last _ t p q)).trans (score_eq A B t p q)
  exact (congrArg (max negInf) hfold).trans (max_eq_right ((Finset.le_fold_max _).2 (Or.inl le_rfl)))

/-- The exponential of a score less its row's maximum. -/
theorem rowExp_eq (t : Fin 32) (p q : Fin 512) :
    val_main_v7 (F := Ideal) A B (ix3 t p q) = rowExp (score (slab A t) (slab B t)) p q := by
  rw [val_main_v7_apply, val_main_v6_apply, val_main_v5_apply, val_main_v4_apply,
    show idx_main_v4 (idx_main_v5 (ix3 t p q)) = ix2 t p from by coords2, score_eq, rowMax_eq]
  rfl

/-- The sum from zero of a row's exponentials. -/
theorem rowSum_eq (t : Fin 32) (p : Fin 512) :
    val_main_v8 (F := Ideal) A B (ix2 t p) = rowSum (score (slab A t) (slab B t)) p := by
  rw [val_main_v8_apply, val_main_cst_1_apply]
  refine (congrArg (· + _) Ideal.ofBits_zero_f32).trans ((zero_add _).trans ?_)
  exact Finset.sum_congr rfl fun k _ => by
    rw [show idx_main_v8 (ix2 t p) k = ix3 t p k from by coords3]
    exact rowExp_eq A B t p k

/-- The quotient: the softmax along `q`. -/
theorem rowSoft_eq (t : Fin 32) (p q : Fin 512) :
    val_main_v11 (F := Ideal) A B (ix3 t p q) = rowSoft (score (slab A t) (slab B t)) p q := by
  rw [val_main_v11_apply, val_main_v10_apply, val_main_v9_apply,
    show idx_main_v9 (idx_main_v10 (ix3 t p q)) = ix2 t p from by coords2, rowExp_eq, rowSum_eq]
  rfl

/-- The second product: the array aligned with the first input. -/
theorem alignedA_eq (t : Fin 32) (p : Fin 512) (d : Fin 768) :
    val_main_v12 (F := Ideal) A B (ix3 t p d) = alignedA (slab A t) (slab B t) p d := by
  rw [val_main_v12_apply]
  exact Finset.sum_congr rfl fun k _ => by
    rw [show lidx_main_v12 (ix3 t p d) k = ix3 t p k from by coords3,
      show ridx_main_v12 (ix3 t p d) k = ix3 t k d from by coords3, rowSoft_eq]
    rfl

/-! ## The softmax along the first sequence, and the array aligned with the second -/

/-- The joined maximum over `p`: the column's maximum. -/
theorem colMax_eq (t : Fin 32) (q : Fin 512) :
    val_main_v15 (F := Ideal) A B (ix2 t q) = colMax (score (slab A t) (slab B t)) q := by
  rw [val_main_v15_apply, val_main_v14_apply, val_main_cst_3_apply]
  unfold val_main_v13
  rw [Host.reduce_eq_fold_single FloatOps.maximumf _ _ reducesTo_S32x512x512_S32x512_d1 (by decide) h_S_]
  have hfold : (Finset.univ : Finset (Fin 512)).fold max negInf
      (val_main_v0 (F := Ideal) A B ∘ (Shape.Reduces.lift (s := S32x512x512) (t := S32x512) (a := (1 : Fin 3)) (by decide) (ix2 t q)))
      = colMax (score (slab A t) (slab B t)) q :=
    Finset.fold_congr fun p _ => (congrArg (val_main_v0 (F := Ideal) A B) (lift_mid _ t q p)).trans (score_eq A B t p q)
  exact (congrArg (max negInf) hfold).trans (max_eq_right ((Finset.le_fold_max _).2 (Or.inl le_rfl)))

/-- The exponential of a score less its column's maximum. -/
theorem colExp_eq (t : Fin 32) (p q : Fin 512) :
    val_main_v19 (F := Ideal) A B (ix3 t p q) = colExp (score (slab A t) (slab B t)) p q := by
  rw [val_main_v19_apply, val_main_v18_apply, val_main_v17_apply, val_main_v16_apply,
    show idx_main_v16 (idx_main_v17 (ix3 t p q)) = ix2 t q from by coords2, score_eq, colMax_eq]
  rfl

/-- The sum from zero of a column's exponentials. -/
theorem colSum_eq (t : Fin 32) (q : Fin 512) :
    val_main_v20 (F := Ideal) A B (ix2 t q) = colSum (score (slab A t) (slab B t)) q := by
  rw [val_main_v20_apply, val_main_cst_4_apply]
  refine (congrArg (· + _) Ideal.ofBits_zero_f32).trans ((zero_add _).trans ?_)
  exact Finset.sum_congr rfl fun k _ => by
    rw [show idx_main_v20 (ix2 t q) k = ix3 t k q from by coords3]
    exact colExp_eq A B t k q

/-- The quotient: the softmax along `p`. -/
theorem colSoft_eq (t : Fin 32) (p q : Fin 512) :
    val_main_v23 (F := Ideal) A B (ix3 t p q) = colSoft (score (slab A t) (slab B t)) p q := by
  rw [val_main_v23_apply, val_main_v22_apply, val_main_v21_apply,
    show idx_main_v21 (idx_main_v22 (ix3 t p q)) = ix2 t q from by coords2, colExp_eq, colSum_eq]
  rfl

/-- The third product: the array aligned with the second input. -/
theorem alignedB_eq (t : Fin 32) (q : Fin 512) (d : Fin 768) :
    val_main_v24 (F := Ideal) A B (ix3 t q d) = alignedB (slab A t) (slab B t) q d := by
  rw [val_main_v24_apply]
  exact Finset.sum_congr rfl fun k _ => by
    rw [show lidx_main_v24 (ix3 t q d) k = ix3 t k q from by coords3,
      show ridx_main_v24 (ix3 t q d) k = ix3 t k d from by coords3, colSoft_eq]
    rfl

/-! ## The concatenations -/

/-- Off the joined axis an operand's index and the result's agree. -/
theorem off_axis (t : Fin 32) (p : Fin 512) (c : Fin 3072) (d : Fin 768) :
    ∀ b : Fin S32x512x768.rank, b.cast (rfl : S32x512x768.rank = S32x512x3072.rank) ≠ (2 : Fin 3) →
      ((ix3 t p d : S32x512x768.Idx) b).val = ((ix3 t p c : S32x512x3072.Idx) (b.cast rfl)).val := fun b hb => by
  match b with
  | ⟨0, _⟩ => rfl
  | ⟨1, _⟩ => rfl
  | ⟨2, _⟩ => exact absurd rfl hb

/-- Four arrays of 768 columns joined along the last axis: column `768 k + d` is operand `k` at column `d`. -/
theorem concat4_0 {α : Type} (X0 X1 X2 X3 : S32x512x768.Idx → α) (t : Fin 32) (p : Fin 512) (c : Fin 3072) (d : Fin 768)
    (hc : c.val = 0 + d.val) :
    concatenate S32x512x3072 2 [⟨S32x512x768, X0⟩, ⟨S32x512x768, X1⟩, ⟨S32x512x768, X2⟩, ⟨S32x512x768, X3⟩]
      concatenates_S32x512x768_S32x512x768_S32x512x768_S32x512x768_S32x512x3072_d2 (ix3 t p c) = X0 (ix3 t p d) :=
  concatenate_apply_piece 2 _ _ (ix3 t p c) 0 (by simp) S32x512x768 X0 rfl rfl 0 rfl (ix3 t p d) (off_axis t p c d)
    (by show 0 + d.val = c.val; omega)
theorem concat4_1 {α : Type} (X0 X1 X2 X3 : S32x512x768.Idx → α) (t : Fin 32) (p : Fin 512) (c : Fin 3072) (d : Fin 768)
    (hc : c.val = 768 + d.val) :
    concatenate S32x512x3072 2 [⟨S32x512x768, X0⟩, ⟨S32x512x768, X1⟩, ⟨S32x512x768, X2⟩, ⟨S32x512x768, X3⟩]
      concatenates_S32x512x768_S32x512x768_S32x512x768_S32x512x768_S32x512x3072_d2 (ix3 t p c) = X1 (ix3 t p d) :=
  concatenate_apply_piece 2 _ _ (ix3 t p c) 1 (by simp) S32x512x768 X1 rfl rfl 768 rfl (ix3 t p d) (off_axis t p c d)
    (by show 768 + d.val = c.val; omega)
theorem concat4_2 {α : Type} (X0 X1 X2 X3 : S32x512x768.Idx → α) (t : Fin 32) (p : Fin 512) (c : Fin 3072) (d : Fin 768)
    (hc : c.val = 1536 + d.val) :
    concatenate S32x512x3072 2 [⟨S32x512x768, X0⟩, ⟨S32x512x768, X1⟩, ⟨S32x512x768, X2⟩, ⟨S32x512x768, X3⟩]
      concatenates_S32x512x768_S32x512x768_S32x512x768_S32x512x768_S32x512x3072_d2 (ix3 t p c) = X2 (ix3 t p d) :=
  concatenate_apply_piece 2 _ _ (ix3 t p c) 2 (by simp) S32x512x768 X2 rfl rfl 1536 rfl (ix3 t p d) (off_axis t p c d)
    (by show 1536 + d.val = c.val; omega)
theorem concat4_3 {α : Type} (X0 X1 X2 X3 : S32x512x768.Idx → α) (t : Fin 32) (p : Fin 512) (c : Fin 3072) (d : Fin 768)
    (hc : c.val = 2304 + d.val) :
    concatenate S32x512x3072 2 [⟨S32x512x768, X0⟩, ⟨S32x512x768, X1⟩, ⟨S32x512x768, X2⟩, ⟨S32x512x768, X3⟩]
      concatenates_S32x512x768_S32x512x768_S32x512x768_S32x512x768_S32x512x3072_d2 (ix3 t p c) = X3 (ix3 t p d) :=
  concatenate_apply_piece 2 _ _ (ix3 t p c) 3 (by simp) S32x512x768 X3 rfl rfl 2304 rfl (ix3 t p d) (off_axis t p c d)
    (by show 2304 + d.val = c.val; omega)

/-- The first result at column `768 s + d` is band `s` of the first input and its aligned array at feature `d`. -/
theorem first_at (t : Fin 32) (p : Fin 512) (c : Fin 3072) (s : Fin 4) (d : Fin 768) (hc : c.val = 768 * s.val + d.val) :
    val_main_v27 (F := Ideal) A B (ix3 t p c) = band (A (ix3 t p d)) (alignedA (slab A t) (slab B t) p d) s := by
  unfold val_main_v27
  match s, hc with
  | ⟨0, _⟩, hc => exact concat4_0 _ _ _ _ t p c d (by have h : c.val = 768 * 0 + d.val := hc; omega)
  | ⟨1, _⟩, hc =>
    exact (concat4_1 _ _ _ _ t p c d (by have h : c.val = 768 * 1 + d.val := hc; omega)).trans (alignedA_eq A B t p d)
  | ⟨2, _⟩, hc =>
    exact (concat4_2 _ _ _ _ t p c d (by have h : c.val = 768 * 2 + d.val := hc; omega)).trans
      ((val_main_v25_apply (F := Ideal) A B _).trans (congrArg (A (ix3 t p d) - ·) (alignedA_eq A B t p d)))
  | ⟨3, _⟩, hc =>
    exact (concat4_3 _ _ _ _ t p c d (by have h : c.val = 768 * 3 + d.val := hc; omega)).trans
      ((val_main_v26_apply (F := Ideal) A B _).trans (congrArg (A (ix3 t p d) * ·) (alignedA_eq A B t p d)))

/-- The second result likewise, of the second input. -/
theorem second_at (t : Fin 32) (p : Fin 512) (c : Fin 3072) (s : Fin 4) (d : Fin 768) (hc : c.val = 768 * s.val + d.val) :
    val_main_v30 (F := Ideal) A B (ix3 t p c) = band (B (ix3 t p d)) (alignedB (slab A t) (slab B t) p d) s := by
  unfold val_main_v30
  match s, hc with
  | ⟨0, _⟩, hc => exact concat4_0 _ _ _ _ t p c d (by have h : c.val = 768 * 0 + d.val := hc; omega)
  | ⟨1, _⟩, hc =>
    exact (concat4_1 _ _ _ _ t p c d (by have h : c.val = 768 * 1 + d.val := hc; omega)).trans (alignedB_eq A B t p d)
  | ⟨2, _⟩, hc =>
    exact (concat4_2 _ _ _ _ t p c d (by have h : c.val = 768 * 2 + d.val := hc; omega)).trans
      ((val_main_v28_apply (F := Ideal) A B _).trans (congrArg (B (ix3 t p d) - ·) (alignedB_eq A B t p d)))
  | ⟨3, _⟩, hc =>
    exact (concat4_3 _ _ _ _ t p c d (by have h : c.val = 768 * 3 + d.val := hc; omega)).trans
      ((val_main_v29_apply (F := Ideal) A B _).trans (congrArg (B (ix3 t p d) * ·) (alignedB_eq A B t p d)))

/-! ## The reference's results are the soft alignment's -/

theorem first_eq : val_main_v27 (F := Ideal) A B = outA A B := by
  funext i
  obtain ⟨t, p, c, rfl⟩ : ∃ (t : Fin 32) (p : Fin 512) (c : Fin 3072), i = ix3 t p c := ⟨i 0, i 1, i 2, eq_ix3 i⟩
  have hc : c.val < 3072 := c.isLt
  have hsplit : c.val = 768 * (c.val / 768) + c.val % 768 := by omega
  refine (first_at A B t p c ⟨c.val / 768, by omega⟩ ⟨c.val % 768, Nat.mod_lt _ (by decide)⟩ hsplit).trans ?_
  exact ((outA_at A B (ix3 t p c) t p c.val rfl rfl rfl).trans
    (rowOut_eq (slab A t) (alignedA (slab A t) (slab B t)) p ⟨c.val / 768, by omega⟩ ⟨c.val % 768, Nat.mod_lt _ (by decide)⟩ c.val hsplit)).symm

theorem second_eq : val_main_v30 (F := Ideal) A B = outB A B := by
  funext i
  obtain ⟨t, p, c, rfl⟩ : ∃ (t : Fin 32) (p : Fin 512) (c : Fin 3072), i = ix3 t p c := ⟨i 0, i 1, i 2, eq_ix3 i⟩
  have hc : c.val < 3072 := c.isLt
  have hsplit : c.val = 768 * (c.val / 768) + c.val % 768 := by omega
  refine (second_at A B t p c ⟨c.val / 768, by omega⟩ ⟨c.val % 768, Nat.mod_lt _ (by decide)⟩ hsplit).trans ?_
  exact ((outB_at A B (ix3 t p c) t p c.val rfl rfl rfl).trans
    (rowOut_eq (slab B t) (alignedB (slab A t) (slab B t)) p ⟨c.val / 768, by omega⟩ ⟨c.val % 768, Nat.mod_lt _ (by decide)⟩ c.val hsplit)).symm

end Cert.ReferenceIdeal.RefValue

end
-- ==== Proof.LibLogSoftmax.lean ====
/-
  The row-wise log-softmax on the extended reals, as both programs compute it, and the two column forms it needs.

  For a row `z : Fin d → EReal`: its maximum `M` is taken as the fold of `max` over the row from the word of minus
  infinity, joined once more with that word; the shifted row is `z k - M`; the result at column `q` is
  `(z q - M) - log (∑ k, exp (z k - M))`. Nothing here needs the entries to be finite: the statement is only that the
  result at a row depends on that row alone.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLogSoftmax

open Idealize.ShloMosaic Idealize.ShloMosaic.ValueIdx

/-- The value of the word of minus infinity. -/
abbrev negInf : EReal := Ideal.ofBits .f32 0xFF800000#32

/-- A row's maximum: the fold of `max` from minus infinity, joined with minus infinity. -/
def rowMax {d : ℕ} (row : Fin d → EReal) : EReal :=
  max negInf ((Finset.univ : Finset (Fin d)).fold max negInf row)

/-- The log-softmax of a row at column `q`. -/
def lsmRow {d : ℕ} (row : Fin d → EReal) (q : Fin d) : EReal :=
  (row q - rowMax row) - Ideal.log (∑ k : Fin d, Ideal.exp (row k - rowMax row))

/-- Row-wise log-softmax of an `[n, d]` array. -/
def logSoftmax {n d : ℕ} (z : (⟨2, ![n, d]⟩ : Shape).Idx → EReal) : (⟨2, ![n, d]⟩ : Shape).Idx → EReal :=
  fun i => lsmRow (fun k => z (ix2 (i 0) k)) (i 1)

/-- Two arrays that agree along a row (each its own row) have the same log-softmax at any column of it. -/
theorem logSoftmax_congr {n n' d : ℕ} (z : (⟨2, ![n, d]⟩ : Shape).Idx → EReal) (z' : (⟨2, ![n', d]⟩ : Shape).Idx → EReal)
    (i : (⟨2, ![n, d]⟩ : Shape).Idx) (i' : (⟨2, ![n', d]⟩ : Shape).Idx) (hcol : (i 1).val = (i' 1).val)
    (hrow : ∀ k : Fin d, z (ix2 (i 0) k) = z' (ix2 (i' 0) k)) : logSoftmax z i = logSoftmax z' i' := by
  unfold logSoftmax
  have hr : (fun k : Fin d => z (ix2 (i 0) k)) = fun k : Fin d => z' (ix2 (i' 0) k) := funext hrow
  have hc : (i 1 : Fin d) = (i' 1 : Fin d) := Fin.ext hcol
  rw [hr, hc]

/-! ## The two column forms: a vector as a column, and a column broadcast along the rows -/

/-- A vector `v : [n]` cast to the column `[n, 1]`, at (r, 0), is `v r`. -/
theorem col_cast {n : ℕ} (v : (⟨1, ![n]⟩ : Shape).Idx → EReal) (h : (⟨1, ![n]⟩ : Shape).ShapeCasts ⟨2, ![n, 1]⟩)
    (y : (⟨2, ![n, 1]⟩ : Shape).Idx) : shapeCast ⟨2, ![n, 1]⟩ v h y = v (ix1 (y 0)) := by
  refine shapeCast_apply v h y (ix1 (y 0)) ?_
  rw [Shape.rowMajor_val_one, Shape.rowMajor_val_two]
  have h1 : (y 1).val < 1 := idx2_lt1 y
  show (y 0).val = (y 0).val * 1 + (y 1).val
  omega

/-- A column `u : [n, 1]` broadcast to `[n, d]`, at (r, j), is `u (r, 0)`. -/
theorem col_bcast {n d : ℕ} (u : (⟨2, ![n, 1]⟩ : Shape).Idx → EReal) (h : (⟨2, ![n, 1]⟩ : Shape).Broadcasts ⟨2, ![n, d]⟩)
    (i : (⟨2, ![n, d]⟩ : Shape).Idx) : broadcastTo ⟨2, ![n, d]⟩ u h i = u (ix2 (i 0) ⟨0, Nat.one_pos⟩) := by
  refine broadcastTo_apply u h i (ix2 (i 0) ⟨0, Nat.one_pos⟩) (fun a => ?_)
  match a with
  | ⟨0, _⟩ =>
    show (i 0).val = if n = 1 then 0 else (i 0).val
    have hlt : (i 0).val < n := idx2_lt0 i
    split
    · omega
    · rfl
  | ⟨1, _⟩ => exact (if_pos rfl).symm

end Cert.LibLogSoftmax

end
-- ==== Proof.Body.lean ====
/-
  The kernel body's arithmetic on one batch element, read at an index on the extended reals.

  The body loads the two blocks `[1, 512, 768]` of the inputs, views them as matrices, and computes: the score matrix (a
  matrix product contracting the feature axis of both, into a zero accumulator); its softmax along the second axis and along
  the first (a lane maximum from minus infinity, broadcast back, the exponential of the difference, a lane sum, broadcast
  back, the quotient); and the two aligned matrices (two more products into zero accumulators, one contracting the second
  axis of the weights with the first of the second input's matrix, one contracting the first axis of both). A change of float
  format is the identity here, a product into a zero accumulator is the plain sum of products, and a lane reduction over one
  axis is a fold, or a sum, over that axis's coordinates.
-/
import proofs.«104094_j18554258719076_2_alg».proof.Proof.Gen.KernelIdeal.Skeleton
import proofs.«104094_j18554258719076_2_alg».proof.Proof.Align
import proofs.«104094_j18554258719076_2_alg».proof.Proof.LibLogSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Cert.Align Cert.LibLogSoftmax
open Idealize.ShloMosaic Idealize.ShloMosaic.ValueIdx

/-- A block `[1, 512, 768]` as a matrix. -/
def mat (x : Vec Ideal S1x512x768 .f32) : Fin 512 → Fin 768 → EReal := fun p d => x (ix3 (0 : Fin 1) p d)

/-- A vector `[512, 512]` as a matrix. -/
def sq (e : FVec Ideal S512x512 .f32) : Fin 512 → Fin 512 → EReal := fun p q => e (ix2 p q)

/-! ## The blocks as matrices -/

theorem view0 (x : Vec Ideal S1x512x768 .f32) (p : Fin 512) (d : Fin 768) : k0_pay6 (F := Ideal) x (ix2 p d) = mat x p d :=
  shapeCast_1ab_ab_apply x _ p d
theorem view1 (x : Vec Ideal S1x512x768 .f32) (p : Fin 512) (d : Fin 768) : k0_pay7 (F := Ideal) x (ix2 p d) = mat x p d :=
  shapeCast_1ab_ab_apply x _ p d

/-! ## The three products' operand indices -/

abbrev dScore := dot_S512x768_S512x768_S512x512_1_1_0_0_n_n
abbrev dRows := dot_S512x512_S512x768_S512x768_1_0_0_1_n_n
abbrev dCols := dot_S512x512_S512x768_S512x768_0_0_1_1_n_n

theorem dScore_l (j : S512x512.Idx) (k : dScore.contr.Idx) : (dScore.lhsIdx j k 0).val = (j 0).val := by
  unfold DotDims.lhsIdx
  rw [dif_neg (show ¬(0 : Fin S512x768.rank) ∈ dScore.lhsBatch by decide), dif_pos (show (0 : Fin S512x768.rank) ∈ dScore.lhsNonContracting by decide)]
  rfl
theorem dScore_r (j : S512x512.Idx) (k : dScore.contr.Idx) : (dScore.rhsIdx j k 0).val = (j 1).val := by
  unfold DotDims.rhsIdx
  rw [dif_neg (show ¬(0 : Fin S512x768.rank) ∈ dScore.rhsBatch by decide), dif_pos (show (0 : Fin S512x768.rank) ∈ dScore.rhsNonContracting by decide)]
  rfl
theorem dRows_l (j : S512x768.Idx) (k : dRows.contr.Idx) : (dRows.lhsIdx j k 0).val = (j 0).val := by
  unfold DotDims.lhsIdx
  rw [dif_neg (show ¬(0 : Fin S512x512.rank) ∈ dRows.lhsBatch by decide), dif_pos (show (0 : Fin S512x512.rank) ∈ dRows.lhsNonContracting by decide)]
  rfl
theorem dRows_r (j : S512x768.Idx) (k : dRows.contr.Idx) : (dRows.rhsIdx j k 1).val = (j 1).val := by
  unfold DotDims.rhsIdx
  rw [dif_neg (show ¬(1 : Fin S512x768.rank) ∈ dRows.rhsBatch by decide), dif_pos (show (1 : Fin S512x768.rank) ∈ dRows.rhsNonContracting by decide)]
  rfl
theorem dCols_l (j : S512x768.Idx) (k : dCols.contr.Idx) : (dCols.lhsIdx j k 1).val = (j 0).val := by
  unfold DotDims.lhsIdx
  rw [dif_neg (show ¬(1 : Fin S512x512.rank) ∈ dCols.lhsBatch by decide), dif_pos (show (1 : Fin S512x512.rank) ∈ dCols.lhsNonContracting by decide)]
  rfl
theorem dCols_r (j : S512x768.Idx) (k : dCols.contr.Idx) : (dCols.rhsIdx j k 1).val = (j 1).val := by
  unfold DotDims.rhsIdx
  rw [dif_neg (show ¬(1 : Fin S512x768.rank) ∈ dCols.rhsBatch by decide), dif_pos (show (1 : Fin S512x768.rank) ∈ dCols.rhsNonContracting by decide)]
  rfl

/-! ## The scores -/

/-- The first product at `(p, q)`: the inner product of row `p` of the first block and row `q` of the second. -/
theorem score_pay (x0 x1 : Vec Ideal S1x512x768 .f32) (p q : Fin 512) :
    k0_pay10 (F := Ideal) x0 x1 (ix2 p q) = score (mat x0) (mat x1) p q := by
  unfold k0_pay10
  refine (Ideal.matmul_constant_zero_apply dScore none _ _ (ix2 p q)).trans ?_
  rw [← Equiv.sum_comp (contrEquiv1 dScore 768 rfl rfl).symm]
  refine Finset.sum_congr rfl fun k _ => ?_
  have hk := contrEquiv1_symm_val dScore 768 rfl rfl k
  have el : dScore.lhsIdx (ix2 p q) ((contrEquiv1 dScore 768 rfl rfl).symm k) = ix2 p k := funext fun a => Fin.ext (by
    match a with
    | ⟨0, _⟩ => exact dScore_l _ _
    | ⟨1, _⟩ => exact (dScore.lhsIdx_val_of_single rfl _ _).trans hk)
  have er : dScore.rhsIdx (ix2 p q) ((contrEquiv1 dScore 768 rfl rfl).symm k) = ix2 q k := funext fun a => Fin.ext (by
    match a with
    | ⟨0, _⟩ => exact dScore_r _ _
    | ⟨1, _⟩ => exact (dScore.rhsIdx_val_of_single rfl _ _).trans hk)
  rw [el, er]
  exact congrArg₂ (· * ·) (view0 x0 p k) (view1 x1 q k)

/-! ## The lane reductions' inserted indices -/

/-- Over a row number, the index of `[512, 512]` with `q` inserted last. -/
theorem lane_last (h : S512x512.Reduces [1] S512) (p q : Fin 512) : h.lift (ix1 p) q = ix2 p q :=
  funext fun a => Fin.ext (by match a with | ⟨0, _⟩ => rfl | ⟨1, _⟩ => rfl)
/-- Over a column number, the index of `[512, 512]` with `p` inserted first. -/
theorem lane_first (h : S512x512.Reduces [0] S512) (q p : Fin 512) : h.lift (ix1 q) p = ix2 p q :=
  funext fun a => Fin.ext (by match a with | ⟨0, _⟩ => rfl | ⟨1, _⟩ => rfl)

/-! ## The softmax along the second axis, as the vector operations compute it -/

/-- A vector of 512 row values as a column, broadcast along the rows. -/
def alongRows (v : FVec Ideal S512 .f32) : FVec Ideal S512x512 .f32 :=
  broadcastTo S512x512 (shapeCast S512x1 v shapeCasts_S512_S512x1) broadcasts_S512x1_S512x512

theorem alongRows_apply (v : FVec Ideal S512 .f32) (p q : Fin 512) : alongRows v (ix2 p q) = v (ix1 p) :=
  (col_bcast _ broadcasts_S512x1_S512x512 (ix2 p q)).trans (col_cast v shapeCasts_S512_S512x1 _)

def rowMaxV (e : FVec Ideal S512x512 .f32) : FVec Ideal S512 .f32 :=
  multiReduction .maximumf [1] S512 e 0xFF800000#32 reduces_S512x512_S512 (.inl rfl) rfl
def rowExpV (e : FVec Ideal S512x512 .f32) : FVec Ideal S512x512 .f32 := exp (subf e (alongRows (rowMaxV e)))
def rowSumV (e : FVec Ideal S512x512 .f32) : FVec Ideal S512 .f32 :=
  multiReduction .add [1] S512 (rowExpV e) 0x00000000#32 reduces_S512x512_S512 (.inl rfl) rfl
/-- The body's softmax of a score block along its second axis. -/
def softRows (e : FVec Ideal S512x512 .f32) : FVec Ideal S512x512 .f32 := divf (rowExpV e) (alongRows (rowSumV e))

theorem rowMaxV_apply (e : FVec Ideal S512x512 .f32) (p : Fin 512) : rowMaxV e (ix1 p) = rowMax (sq e) p :=
  (Ideal.multiReduction_maximumf_single e _ reduces_S512x512_S512 (.inl rfl) rfl (ix1 p)).trans
    (Finset.fold_congr fun q _ => congrArg e (lane_last _ p q))

theorem rowExpV_apply (e : FVec Ideal S512x512 .f32) (p q : Fin 512) : rowExpV e (ix2 p q) = rowExp (sq e) p q := by
  show Ideal.exp (e (ix2 p q) - alongRows (rowMaxV e) (ix2 p q)) = _
  rw [alongRows_apply, rowMaxV_apply]
  rfl

theorem rowSumV_apply (e : FVec Ideal S512x512 .f32) (p : Fin 512) : rowSumV e (ix1 p) = rowSum (sq e) p :=
  (Ideal.multiReduction_add_single (rowExpV e) _ reduces_S512x512_S512 (.inl rfl) rfl (ix1 p)).trans
    (Finset.sum_congr rfl fun q _ => (congrArg (rowExpV e) (lane_last _ p q)).trans (rowExpV_apply e p q))

theorem softRows_apply (e : FVec Ideal S512x512 .f32) (p q : Fin 512) : softRows e (ix2 p q) = rowSoft (sq e) p q := by
  show Ideal.div (rowExpV e (ix2 p q)) (alongRows (rowSumV e) (ix2 p q)) = _
  rw [rowExpV_apply, alongRows_apply, rowSumV_apply]
  rfl

/-! ## The softmax along the first axis -/

/-- A vector of 512 column values as a row, broadcast along the columns. -/
def alongCols (v : FVec Ideal S512 .f32) : FVec Ideal S512x512 .f32 :=
  broadcastTo S512x512 (shapeCast S1x512 v shapeCasts_S512_S1x512) broadcasts_S1x512_S512x512

theorem alongCols_apply (v : FVec Ideal S512 .f32) (p q : Fin 512) : alongCols v (ix2 p q) = v (ix1 q) :=
  (broadcastTo_1b_ab_apply _ broadcasts_S1x512_S512x512 p q).trans (shapeCast_a_1a_apply v shapeCasts_S512_S1x512 _ q)

def colMaxV (e : FVec Ideal S512x512 .f32) : FVec Ideal S512 .f32 :=
  multiReduction .maximumf [0] S512 e 0xFF800000#32 reduces_S512x512_S512_2 (.inl rfl) rfl
def colExpV (e : FVec Ideal S512x512 .f32) : FVec Ideal S512x512 .f32 := exp (subf e (alongCols (colMaxV e)))
def colSumV (e : FVec Ideal S512x512 .f32) : FVec Ideal S512 .f32 :=
  multiReduction .add [0] S512 (colExpV e) 0x00000000#32 reduces_S512x512_S512_2 (.inl rfl) rfl
/-- The body's softmax of a score block along its first axis. -/
def softCols (e : FVec Ideal S512x512 .f32) : FVec Ideal S512x512 .f32 := divf (colExpV e) (alongCols (colSumV e))

theorem colMaxV_apply (e : FVec Ideal S512x512 .f32) (q : Fin 512) : colMaxV e (ix1 q) = colMax (sq e) q :=
  (Ideal.multiReduction_maximumf_single e _ reduces_S512x512_S512_2 (.inl rfl) rfl (ix1 q)).trans
    (Finset.fold_congr fun p _ => congrArg e (lane_first _ q p))

theorem colExpV_apply (e : FVec Ideal S512x512 .f32) (p q : Fin 512) : colExpV e (ix2 p q) = colExp (sq e) p q := by
  show Ideal.exp (e (ix2 p q) - alongCols (colMaxV e) (ix2 p q)) = _
  rw [alongCols_apply, colMaxV_apply]
  rfl

theorem colSumV_apply (e : FVec Ideal S512x512 .f32) (q : Fin 512) : colSumV e (ix1 q) = colSum (sq e) q :=
  (Ideal.multiReduction_add_single (colExpV e) _ reduces_S512x512_S512_2 (.inl rfl) rfl (ix1 q)).trans
    (Finset.sum_congr rfl fun p _ => (congrArg (colExpV e) (lane_first _ q p)).trans (colExpV_apply e p q))

theorem softCols_apply (e : FVec Ideal S512x512 .f32) (p q : Fin 512) : softCols e (ix2 p q) = colSoft (sq e) p q := by
  show Ideal.div (colExpV e (ix2 p q)) (alongCols (colSumV e) (ix2 p q)) = _
  rw [colExpV_apply, alongCols_apply, colSumV_apply]
  rfl

/-! ## The aligned matrices -/

/-- The second product is the weights along the second axis times the second block's matrix. -/
theorem pay11_eq (x0 x1 : Vec Ideal S1x512x768 .f32) :
    k0_pay11 (F := Ideal) x0 x1
      = matmul dRows none (truncf .bf16 (softRows (k0_pay10 x0 x1)) bitsLt_bf16_f32) (k0_pay9 x1) (constant S512x768 .f32 0x00000000#32) := rfl

/-- The third product is the weights along the first axis, transposed by the contraction, times the first block's matrix. -/
theorem pay1_eq (v4 : FVec Ideal S512x768 .bf16) (v6 : FVec Ideal S512x512 .f32) :
    k0_pay1 (F := Ideal) v4 v6
      = matmul dCols none (truncf .bf16 (softCols v6) bitsLt_bf16_f32) v4 (constant S512x768 .f32 0x00000000#32) := rfl

theorem sq_score (x0 x1 : Vec Ideal S1x512x768 .f32) : sq (k0_pay10 (F := Ideal) x0 x1) = score (mat x0) (mat x1) :=
  funext fun p => funext fun q => score_pay x0 x1 p q

/-- The second product at `(p, d)`: the array aligned with the first block. -/
theorem alignedA_pay (x0 x1 : Vec Ideal S1x512x768 .f32) (p : Fin 512) (d : Fin 768) :
    k0_pay11 (F := Ideal) x0 x1 (ix2 p d) = alignedA (mat x0) (mat x1) p d := by
  rw [pay11_eq]
  refine (Ideal.matmul_constant_zero_apply dRows none _ _ (ix2 p d)).trans ?_
  rw [← Equiv.sum_comp (contrEquiv1 dRows 512 rfl rfl).symm]
  refine Finset.sum_congr rfl fun k _ => ?_
  have hk := contrEquiv1_symm_val dRows 512 rfl rfl k
  have el : dRows.lhsIdx (ix2 p d) ((contrEquiv1 dRows 512 rfl rfl).symm k) = ix2 p k := funext fun a => Fin.ext (by
    match a with
    | ⟨0, _⟩ => exact dRows_l _ _
    | ⟨1, _⟩ => exact (dRows.lhsIdx_val_of_single rfl _ _).trans hk)
  have er : dRows.rhsIdx (ix2 p d) ((contrEquiv1 dRows 512 rfl rfl).symm k) = ix2 k d := funext fun a => Fin.ext (by
    match a with
    | ⟨0, _⟩ => exact (dRows.rhsIdx_val_of_single rfl _ _).trans hk
    | ⟨1, _⟩ => exact dRows_r _ _)
  rw [el, er]
  refine congrArg₂ (· * ·) ((softRows_apply _ p k).trans ?_) (view1 x1 k d)
  rw [sq_score]

/-- The third product at `(q, d)`: the array aligned with the second block. -/
theorem alignedB_pay (x0 x1 : Vec Ideal S1x512x768 .f32) (q : Fin 512) (d : Fin 768) :
    k0_pay1 (F := Ideal) (k0_pay8 x0) (k0_pay10 x0 x1) (ix2 q d) = alignedB (mat x0) (mat x1) q d := by
  rw [pay1_eq]
  refine (Ideal.matmul_constant_zero_apply dCols none _ _ (ix2 q d)).trans ?_
  rw [← Equiv.sum_comp (contrEquiv1 dCols 512 rfl rfl).symm]
  refine Finset.sum_congr rfl fun k _ => ?_
  have hk := contrEquiv1_symm_val dCols 512 rfl rfl k
  have el : dCols.lhsIdx (ix2 q d) ((contrEquiv1 dCols 512 rfl rfl).symm k) = ix2 k q := funext fun a => Fin.ext (by
    match a with
    | ⟨0, _⟩ => exact (dCols.lhsIdx_val_of_single rfl _ _).trans hk
    | ⟨1, _⟩ => exact dCols_l _ _)
  have er : dCols.rhsIdx (ix2 q d) ((contrEquiv1 dCols 512 rfl rfl).symm k) = ix2 k d := funext fun a => Fin.ext (by
    match a with
    | ⟨0, _⟩ => exact (dCols.rhsIdx_val_of_single rfl _ _).trans hk
    | ⟨1, _⟩ => exact dCols_r _ _)
  rw [el, er]
  refine congrArg₂ (· * ·) ((softCols_apply _ k q).trans ?_) (view0 x0 k d)
  rw [sq_score]

/-! ## The stores' payloads at an index -/

section Stores

variable (x0 x1 : Vec Ideal S1x512x768 .f32) (u : Fin 1) (p : Fin 512) (d : Fin 768)

theorem keepA_at : k0_pay12 (F := Ideal) x0 (ix3 u p d) = mat x0 p d :=
  (shapeCast_ab_1ab_apply (k0_pay6 (F := Ideal) x0) _ u p d).trans (view0 x0 p d)
theorem alignedA_at : k0_pay13 (F := Ideal) x0 x1 (ix3 u p d) = alignedA (mat x0) (mat x1) p d :=
  (shapeCast_ab_1ab_apply (k0_pay11 (F := Ideal) x0 x1) _ u p d).trans (alignedA_pay x0 x1 p d)
theorem diffA_at : k0_pay14 (F := Ideal) x0 x1 (ix3 u p d) = mat x0 p d - alignedA (mat x0) (mat x1) p d :=
  (shapeCast_ab_1ab_apply (subf (k0_pay6 (F := Ideal) x0) (k0_pay11 (F := Ideal) x0 x1)) _ u p d).trans
    (congrArg₂ (· - ·) (view0 x0 p d) (alignedA_pay x0 x1 p d))
theorem prodA_at : k0_pay15 (F := Ideal) x0 x1 (ix3 u p d) = mat x0 p d * alignedA (mat x0) (mat x1) p d :=
  (shapeCast_ab_1ab_apply (mulf (k0_pay6 (F := Ideal) x0) (k0_pay11 (F := Ideal) x0 x1)) _ u p d).trans
    (congrArg₂ (· * ·) (view0 x0 p d) (alignedA_pay x0 x1 p d))

theorem keepB_at : k0_pay2 (F := Ideal) (k0_pay7 x1) (ix3 u p d) = mat x1 p d :=
  (shapeCast_ab_1ab_apply (k0_pay7 (F := Ideal) x1) _ u p d).trans (view1 x1 p d)
theorem alignedB_at : k0_pay3 (F := Ideal) (k0_pay8 x0) (k0_pay10 x0 x1) (ix3 u p d) = alignedB (mat x0) (mat x1) p d :=
  (shapeCast_ab_1ab_apply (k0_pay1 (F := Ideal) (k0_pay8 x0) (k0_pay10 x0 x1)) _ u p d).trans (alignedB_pay x0 x1 p d)
theorem diffB_at : k0_pay4 (F := Ideal) (k0_pay7 x1) (k0_pay8 x0) (k0_pay10 x0 x1) (ix3 u p d)
    = mat x1 p d - alignedB (mat x0) (mat x1) p d :=
  (shapeCast_ab_1ab_apply (subf (k0_pay7 (F := Ideal) x1) (k0_pay1 (F := Ideal) (k0_pay8 x0) (k0_pay10 x0 x1))) _ u p d).trans
    (congrArg₂ (· - ·) (view1 x1 p d) (alignedB_pay x0 x1 p d))
theorem prodB_at : k0_pay5 (F := Ideal) (k0_pay7 x1) (k0_pay8 x0) (k0_pay10 x0 x1) (ix3 u p d)
    = mat x1 p d * alignedB (mat x0) (mat x1) p d :=
  (shapeCast_ab_1ab_apply (mulf (k0_pay7 (F := Ideal) x1) (k0_pay1 (F := Ideal) (k0_pay8 x0) (k0_pay10 x0 x1))) _ u p d).trans
    (congrArg₂ (· * ·) (view1 x1 p d) (alignedB_pay x0 x1 p d))

end Stores

/-! ## What the body leaves in the two output blocks -/

/-- The first output block: at position `p`, the output row of the first block's matrix against its aligned matrix. -/
def blockA (x0 x1 : Vec Ideal S1x512x768 .f32) : Vec Ideal S1x512x3072 .f32 := fun y =>
  rowOut (mat x0) (alignedA (mat x0) (mat x1)) (y 1) (y 2).val

/-- The second output block: the same of the second block's matrix. -/
def blockB (x0 x1 : Vec Ideal S1x512x768 .f32) : Vec Ideal S1x512x3072 .f32 := fun y =>
  rowOut (mat x1) (alignedB (mat x0) (mat x1)) (y 1) (y 2).val

theorem blockA_at (x0 x1 : Vec Ideal S1x512x768 .f32) (s : Fin 4) (y : S1x512x3072.Idx) (p : Fin 512) (d : Fin 768)
    (h1 : y 1 = p) (h2 : (y 2).val = 768 * s.val + d.val) :
    blockA x0 x1 y = band (mat x0 p d) (alignedA (mat x0) (mat x1) p d) s := by
  subst h1
  exact rowOut_eq _ _ _ s d _ h2

theorem blockB_at (x0 x1 : Vec Ideal S1x512x768 .f32) (s : Fin 4) (y : S1x512x3072.Idx) (p : Fin 512) (d : Fin 768)
    (h1 : y 1 = p) (h2 : (y 2).val = 768 * s.val + d.val) :
    blockB x0 x1 y = band (mat x1 p d) (alignedB (mat x0) (mat x1) p d) s := by
  subst h1
  exact rowOut_eq _ _ _ s d _ h2

end Cert.KernelIdeal.Body

end
-- ==== Proof.KernelValue.lean ====
/-
  The kernel's two result arrays after its run, on the extended reals: the soft alignment of the argument arrays.

  The grid has one point per batch element; point `t` stages block `t` of each input (the whole `[512, 768]` matrix of batch
  element `t`) and writes back block `t` of each output. The body's four stores into an output block tile its 3072 columns in
  four bands of 768, and each store's payload is that band of the block's rows; so what point `t` writes back is batch
  element `t` of the soft alignment of the argument arrays, and the 32 blocks cover each output array.
-/
import proofs.«104094_j18554258719076_2_alg».proof.Proof.Gen.KernelIdeal.Value
import proofs.«104094_j18554258719076_2_alg».proof.Proof.Body

set_option maxRecDepth 16384

noncomputable section

namespace Cert.KernelIdeal.Whole

open Cert.KernelIdeal Cert.KernelIdeal.Gen Cert.KernelIdeal.Body Cert.Align
open Idealize.ShloMosaic Idealize.ShloMosaic.TcCoe Idealize.ShloMosaic.ValueIdx Idealize.SL.Sem
open Idealize.ShloMosaic.Pipeline (Dat)

/-! ## The body's output blocks -/

theorem hz : (![0, 0, 0] : Fin 3 → Nat) = fun _ => 0 := funext fun a => by fin_cases a <;> rfl

/-- The four stores of the first output leave the block of output rows. -/
theorem outA_block (x0 x1 : Vec Ideal S1x512x768 .f32) : out0_2 (F := Ideal) x0 x1 = blockA x0 x1 := by
  funext y
  unfold out0_2
  simp only [View.ld_unit_zero (S := S1x512x768) hz]
  refine View.canon_apply_of_pieces (blockA x0 x1) _ ?_ y (cover0_2 _ _ _ _ y)
  intro pc hpc
  simp only [List.mem_cons, List.not_mem_nil, or_false] at hpc
  rcases hpc with rfl | rfl | rfl | rfl <;> intro (x : S1x512x768.Idx) <;>
    obtain ⟨u, p, d, rfl⟩ : ∃ (u : Fin 1) (p : Fin 512) (d : Fin 768), x = ix3 u p d := ⟨x 0, x 1, x 2, eq_ix3 x⟩
  · exact (prodA_at x0 x1 u p d).trans (blockA_at x0 x1 3 _ p d (Fin.ext (by show 0 + 1 * p.val = p.val; omega))
      (by show 2304 + 1 * d.val = 768 * 3 + d.val; omega)).symm
  · exact (diffA_at x0 x1 u p d).trans (blockA_at x0 x1 2 _ p d (Fin.ext (by show 0 + 1 * p.val = p.val; omega))
      (by show 1536 + 1 * d.val = 768 * 2 + d.val; omega)).symm
  · exact (alignedA_at x0 x1 u p d).trans (blockA_at x0 x1 1 _ p d (Fin.ext (by show 0 + 1 * p.val = p.val; omega))
      (by show 768 + 1 * d.val = 768 * 1 + d.val; omega)).symm
  · exact (keepA_at x0 u p d).trans (blockA_at x0 x1 0 _ p d (Fin.ext (by show 0 + 1 * p.val = p.val; omega))
      (by show 0 + 1 * d.val = 768 * 0 + d.val; omega)).symm

/-- The four stores of the second output leave the block of output rows. -/
theorem outB_block (x0 x1 : Vec Ideal S1x512x768 .f32) : out0_3 (F := Ideal) x0 x1 = blockB x0 x1 := by
  funext y
  unfold out0_3
  simp only [View.ld_unit_zero (S := S1x512x768) hz]
  refine View.canon_apply_of_pieces (blockB x0 x1) _ ?_ y (cover0_3 _ _ _ _ y)
  intro pc hpc
  simp only [List.mem_cons, List.not_mem_nil, or_false] at hpc
  rcases hpc with rfl | rfl | rfl | rfl <;> intro (x : S1x512x768.Idx) <;>
    obtain ⟨u, p, d, rfl⟩ : ∃ (u : Fin 1) (p : Fin 512) (d : Fin 768), x = ix3 u p d := ⟨x 0, x 1, x 2, eq_ix3 x⟩
  · exact (prodB_at x0 x1 u p d).trans (blockB_at x0 x1 3 _ p d (Fin.ext (by show 0 + 1 * p.val = p.val; omega))
      (by show 2304 + 1 * d.val = 768 * 3 + d.val; omega)).symm
  · exact (diffB_at x0 x1 u p d).trans (blockB_at x0 x1 2 _ p d (Fin.ext (by show 0 + 1 * p.val = p.val; omega))
      (by show 1536 + 1 * d.val = 768 * 2 + d.val; omega)).symm
  · exact (alignedB_at x0 x1 u p d).trans (blockB_at x0 x1 1 _ p d (Fin.ext (by show 0 + 1 * p.val = p.val; omega))
      (by show 768 + 1 * d.val = 768 * 1 + d.val; omega)).symm
  · exact (keepB_at x1 u p d).trans (blockB_at x0 x1 0 _ p d (Fin.ext (by show 0 + 1 * p.val = p.val; omega))
      (by show 0 + 1 * d.val = 768 * 0 + d.val; omega)).symm

/-! ## The grid: one point per batch element -/

variable (m : (ℓ : Loc nD τ sig) → Buf (Elt Ideal) ℓ) (ρ : Dev nD → PrngReg)

theorem hN : cfg0.N = 32 := N_0

/-- The batch element of a grid point. -/
def batch (t : Fin cfg0.N) : Fin 32 := ⟨t.val, by have := t.isLt; have h : cfg0.N = 32 := N_0; omega⟩

/-- The printed index maps, decided over the 32 points: every window's block index is (the point, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The two argument arrays as the region finds them. -/
def argA (c : Dev nD) : Arr := V m c main_arg0
def argB (c : Dev nD) : Arr := V m c main_arg1

/-- The first input's block at point `t`, as a matrix, is batch element `t` of the first argument. -/
theorem mat_blockA (c : Dev nD) (t : Fin cfg0.N) : mat (iblk m c 0 t) = slab (argA m c) (batch t) := by
  funext p d
  show V m c main_arg0 (((cfg0.win 0).blk t).view.emb (ix3 (0 : Fin 1) p d)) = V m c main_arg0 (ix3 (batch t) p d)
  obtain ⟨e0, e1, e2, -⟩ := idx_facts t
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 512 + 1 * p.val = p.val; omega
  | ⟨2, _⟩ => show win0_0.index t (2 : Fin 3) * 768 + 1 * d.val = d.val; omega

/-- The second input's block at point `t`, as a matrix, is batch element `t` of the second argument. -/
theorem mat_blockB (c : Dev nD) (t : Fin cfg0.N) : mat (iblk m c 1 t) = slab (argB m c) (batch t) := by
  funext p d
  show V m c main_arg1 (((cfg0.win 1).blk t).view.emb (ix3 (0 : Fin 1) p d)) = V m c main_arg1 (ix3 (batch t) p d)
  obtain ⟨-, -, -, e0, e1, e2, -⟩ := idx_facts t
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 512 + 1 * p.val = p.val; omega
  | ⟨2, _⟩ => show win0_1.index t (2 : Fin 3) * 768 + 1 * d.val = d.val; omega

/-! ## What a point writes back -/

/-- Point `t` writes back block `t` of the first result of the soft alignment of the arguments. -/
theorem flushedA_eq (c : Dev nD) (t : Fin cfg0.N) :
    (dats m 0 c).flushed 2 t = ((cfg0.win 2).blk t).view.read (Elt Ideal) (outA (argA m c) (argB m c)) := by
  rw [Value.flushed2]
  have hb := outA_block (iblk m c 0 t) (iblk m c 1 t)
  rw [hb]
  obtain ⟨-, -, -, -, -, -, e0, e1, e2, -⟩ := idx_facts t
  funext j
  show blockA (iblk m c 0 t) (iblk m c 1 t) j = outA (argA m c) (argB m c) (((cfg0.win 2).blk t).view.emb j)
  unfold blockA
  rw [mat_blockA, mat_blockB]
  have hj0 : (j 0).val < 1 := (j 0).isLt
  exact (outA_at (argA m c) (argB m c) _ (batch t) (j 1) (j 2).val
    (Fin.ext (by show win0_2.index t (0 : Fin 3) * 1 + 1 * (j 0).val = t.val; omega))
    (Fin.ext (by show win0_2.index t (1 : Fin 3) * 512 + 1 * (j 1).val = (j 1).val; omega))
    (by show win0_2.index t (2 : Fin 3) * 3072 + 1 * (j 2).val = (j 2).val; omega)).symm

/-- Point `t` writes back block `t` of the second result. -/
theorem flushedB_eq (c : Dev nD) (t : Fin cfg0.N) :
    (dats m 0 c).flushed 3 t = ((cfg0.win 3).blk t).view.read (Elt Ideal) (outB (argA m c) (argB m c)) := by
  rw [Value.flushed3]
  have hb := outB_block (iblk m c 0 t) (iblk m c 1 t)
  rw [hb]
  obtain ⟨-, -, -, -, -, -, -, -, -, e0, e1, e2⟩ := idx_facts t
  funext j
  show blockB (iblk m c 0 t) (iblk m c 1 t) j = outB (argA m c) (argB m c) (((cfg0.win 3).blk t).view.emb j)
  unfold blockB
  rw [mat_blockA, mat_blockB]
  have hj0 : (j 0).val < 1 := (j 0).isLt
  exact (outB_at (argA m c) (argB m c) _ (batch t) (j 1) (j 2).val
    (Fin.ext (by show win0_3.index t (0 : Fin 3) * 1 + 1 * (j 0).val = t.val; omega))
    (Fin.ext (by show win0_3.index t (1 : Fin 3) * 512 + 1 * (j 1).val = (j 1).val; omega))
    (by show win0_3.index t (2 : Fin 3) * 3072 + 1 * (j 2).val = (j 2).val; omega)).symm

/-! ## The blocks cover the arrays -/

theorem mem_blkA (t : Fin cfg0.N) (i : S32x512x3072.Idx) :
    i ∈ ((cfg0.win 2).blk t).view.set ↔ ∀ a : Fin 3, win0_2.index t a * S1x512x3072.size a ≤ (i a).val
      ∧ (i a).val < win0_2.index t a * S1x512x3072.size a + S1x512x3072.size a := by
  show i ∈ ((View.whole main_v0_0).slice (win0_2.rect t)).set ↔ _
  rw [View.set_slice_whole, Rect.mem_set_unit]
  exact Iff.rfl

theorem mem_blkB (t : Fin cfg0.N) (i : S32x512x3072.Idx) :
    i ∈ ((cfg0.win 3).blk t).view.set ↔ ∀ a : Fin 3, win0_3.index t a * S1x512x3072.size a ≤ (i a).val
      ∧ (i a).val < win0_3.index t a * S1x512x3072.size a + S1x512x3072.size a := by
  show i ∈ ((View.whole main_v0_1).slice (win0_3.rect t)).set ↔ _
  rw [View.set_slice_whole, Rect.mem_set_unit]
  exact Iff.rfl

/-- An index of the first result lies in the block of its batch element's point. -/
theorem coverA (i : S32x512x3072.Idx) : ∃ t : Fin cfg0.N, (cfg0.win 2).flush t = true ∧ i ∈ ((cfg0.win 2).blk t).view.set := by
  have h0 : (i 0).val < 32 := (i 0).isLt
  have h1 : (i 1).val < 512 := (i 1).isLt
  have h2 : (i 2).val < 3072 := (i 2).isLt
  have hlt : (i 0).val < cfg0.N := by rw [hN]; exact h0
  refine ⟨⟨(i 0).val, hlt⟩, flush0_2 _, ?_⟩
  obtain ⟨-, -, -, -, -, -, e0, e1, e2, -⟩ := idx_facts ⟨(i 0).val, hlt⟩
  have e0' : win0_2.index ⟨(i 0).val, hlt⟩ (0 : Fin 3) = (i 0).val := e0
  rw [mem_blkA]
  intro a
  match a with
  | ⟨0, _⟩ =>
    show win0_2.index ⟨(i 0).val, _⟩ (0 : Fin 3) * 1 ≤ (i 0).val ∧ (i 0).val < win0_2.index ⟨(i 0).val, _⟩ (0 : Fin 3) * 1 + 1
    rw [e0']; omega
  | ⟨1, _⟩ =>
    show win0_2.index ⟨(i 0).val, _⟩ (1 : Fin 3) * 512 ≤ (i 1).val ∧ (i 1).val < win0_2.index ⟨(i 0).val, _⟩ (1 : Fin 3) * 512 + 512
    rw [e1]; omega
  | ⟨2, _⟩ =>
    show win0_2.index ⟨(i 0).val, _⟩ (2 : Fin 3) * 3072 ≤ (i 2).val ∧ (i 2).val < win0_2.index ⟨(i 0).val, _⟩ (2 : Fin 3) * 3072 + 3072
    rw [e2]; omega

/-- An index of the second result lies in the block of its batch element's point. -/
theorem coverB (i : S32x512x3072.Idx) : ∃ t : Fin cfg0.N, (cfg0.win 3).flush t = true ∧ i ∈ ((cfg0.win 3).blk t).view.set := by
  have h0 : (i 0).val < 32 := (i 0).isLt
  have h1 : (i 1).val < 512 := (i 1).isLt
  have h2 : (i 2).val < 3072 := (i 2).isLt
  have hlt : (i 0).val < cfg0.N := by rw [hN]; exact h0
  refine ⟨⟨(i 0).val, hlt⟩, flush0_3 _, ?_⟩
  obtain ⟨-, -, -, -, -, -, -, -, -, e0, e1, e2⟩ := idx_facts ⟨(i 0).val, hlt⟩
  have e0' : win0_3.index ⟨(i 0).val, hlt⟩ (0 : Fin 3) = (i 0).val := e0
  rw [mem_blkB]
  intro a
  match a with
  | ⟨0, _⟩ =>
    show win0_3.index ⟨(i 0).val, _⟩ (0 : Fin 3) * 1 ≤ (i 0).val ∧ (i 0).val < win0_3.index ⟨(i 0).val, _⟩ (0 : Fin 3) * 1 + 1
    rw [e0']; omega
  | ⟨1, _⟩ =>
    show win0_3.index ⟨(i 0).val, _⟩ (1 : Fin 3) * 512 ≤ (i 1).val ∧ (i 1).val < win0_3.index ⟨(i 0).val, _⟩ (1 : Fin 3) * 512 + 512
    rw [e1]; omega
  | ⟨2, _⟩ =>
    show win0_3.index ⟨(i 0).val, _⟩ (2 : Fin 3) * 3072 ≤ (i 2).val ∧ (i 2).val < win0_3.index ⟨(i 0).val, _⟩ (2 : Fin 3) * 3072 + 3072
    rw [e2]; omega

/-! ## The arrays after the run -/

theorem finalA (c : Dev nD) : (dats m 0 c).arrAt 2 cfg0.N = outA (argA m c) (argB m c) :=
  (dats m 0 c).arrAt_eq_of_cover 2 (outA (argA m c) (argB m c)) (fun t _ => flushedA_eq m c t) coverA

theorem finalB (c : Dev nD) : (dats m 0 c).arrAt 3 cfg0.N = outB (argA m c) (argB m c) :=
  (dats m 0 c).arrAt_eq_of_cover 3 (outB (argA m c) (argB m c)) (fun t _ => flushedB_eq m c t) coverB

/-- Every weakly fair execution of the kernel's program terminates with its two results at the soft alignment of the
    argument arrays, and the arguments unchanged. -/
theorem run : θ_run defs (onTc (τ := τ) (main (F := Ideal))) ⟨m, fun _ => 0, ρ⟩ fun r => ∀ c : Dev nD,
      r.2.mem ((c : Thread nD τ).loc main_v0_0) = outA (argA m c) (argB m c)
      ∧ r.2.mem ((c : Thread nD τ).loc main_v0_1) = outB (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (finalA m c), (h c).2.1.trans (finalB m c), (h c).2.2.1, (h c).2.2.2⟩)
    (Value.run_blocks m ρ)

end Cert.KernelIdeal.Whole

end
-- ==== Proof.lean ====
/-
  Soft alignment of two batches of sequences: the kernel against its reference, on the extended reals.

  Both programs take two arrays `[32, 512, 768]` and return two arrays `[32, 512, 3072]`. Per batch element they form the score
  matrix of the two sequences' positions (inner products of their feature rows), its softmax along each of its two axes, and
  with these weights the array aligned with each input; an output row is the input row, the aligned row, their difference
  and their product, side by side. The kernel does this one batch element per grid point, on matrices it rounds to a shorter
  float format before each product and with its reductions over lanes; the reference does it on the whole batch with batched
  products and host reductions, joining each maximum once more with minus infinity. On the extended reals a change of format is
  the identity, a product into a zero accumulator is the sum of products, a reduction is a fold or a sum over the reduced
  axis, and a fold of `max` from minus infinity is not below minus infinity: so the two programs compute the same terms,
  operation by operation, and no entry needs to be finite for that.

  The three runs: the kernel's two frames are the generated ones; the kernel's value is read off its generated run block by
  block (the 32 blocks cover each result); the reference's run is read back operation by operation.
-/
import proofs.«104094_j18554258719076_2_alg».proof.Defs
import proofs.«104094_j18554258719076_2_alg».proof.Proof.Gen.Kernel
import proofs.«104094_j18554258719076_2_alg».proof.Proof.Gen.Kernel.Frame
import proofs.«104094_j18554258719076_2_alg».proof.Proof.Gen.KernelIdeal
import proofs.«104094_j18554258719076_2_alg».proof.Proof.Gen.KernelIdeal.Frame
import proofs.«104094_j18554258719076_2_alg».proof.Proof.Gen.KernelIdeal.Value
import proofs.«104094_j18554258719076_2_alg».proof.Proof.Gen.ReferenceIdeal
import proofs.«104094_j18554258719076_2_alg».proof.Proof.Gen.Pre_finite_inputs
import proofs.«104094_j18554258719076_2_alg».proof.Proof.RefRun
import proofs.«104094_j18554258719076_2_alg».proof.Proof.RefValue
import proofs.«104094_j18554258719076_2_alg».proof.Proof.KernelValue
import Idealize.ShloMosaic.Adequacy
import Idealize.ShloMosaic.Init

noncomputable section

namespace Cert.Proof

open Idealize.ShloMosaic Idealize.ShloMosaic.TcCoe Idealize.SL.Sem Cert.Align

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the results dropped. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.RefRun.run (F := Ideal) m ρ)

/-- The idealization rewrote no operation. -/
theorem preserves : Cert.preserves_Kernel_KernelIdeal := trivial

/-- From arguments that agree, both programs end with the soft alignment of the arguments in their two results. -/
theorem algebraic : Cert.algebraic_KernelIdeal_ReferenceIdeal := by
  intro m ρ m' ρ' _ hagree
  refine ⟨fun c => outA (Cert.KernelIdeal.Whole.argA m c) (Cert.KernelIdeal.Whole.argB m c),
    fun c => outB (Cert.KernelIdeal.Whole.argA m c) (Cert.KernelIdeal.Whole.argB m c),
    Cert.KernelIdeal.Whole.run m ρ, ?_⟩
  refine (θ_run Cert.ReferenceIdeal.defs _ _).mono (fun _ h c => ⟨(h c).1.trans ?_, (h c).2.1.trans ?_, (h c).2.2.1, (h c).2.2.2⟩)
    (Cert.ReferenceIdeal.RefRun.run (F := Ideal) m' ρ')
  · rw [(hagree c).1, (hagree c).2]
    exact Cert.ReferenceIdeal.RefValue.first_eq _ _
  · rw [(hagree c).1, (hagree c).2]
    exact Cert.ReferenceIdeal.RefValue.second_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
